-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S128x512 : Shape := ⟨2, ![128, 512]⟩
abbrev S128x1 : Shape := ⟨2, ![128, 1]⟩
abbrev S128x4096 : Shape := ⟨2, ![128, 4096]⟩
abbrev S128 : Shape := ⟨1, ![128]⟩

abbrev nBuf : Space → Nat
  | .hbm => 29
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .bf16⟩
  | .hbm, ⟨24, _⟩ => ⟨S4096x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S128x512, .bf16⟩
  | .local _ .vmem, ⟨4, _⟩ => ⟨S128x512, .bf16⟩
  | .local _ .vmem, ⟨5, _⟩ => ⟨S4096x512, .bf16⟩
  | .local _ .vmem, ⟨6, _⟩ => ⟨S128x1, .f32⟩
  | .local _ .vmem, ⟨7, _⟩ => ⟨S128x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S128x4096_S128 : S128x4096.Reduces [1] S128
  shapeCasts_S128_S128x1 : S128.ShapeCasts S128x1
  broadcasts_S128x1_S128x4096 : S128x1.Broadcasts S128x4096
  inb_S128x1_S128x1_0_0 : ∀ a, (![0, 0] : Fin 2 → Nat) a + S128x1.size a ≤ S128x1.size a
  h_S128x1 : 0 < S128x1.numel
  reducesTo_S4096x1_S_d0_1 : S4096x1.ReducesTo [0, 1] S_
  dot_S128x512_S4096x512_S128x4096_1_1_0_0_n_n_wf : DotDims.WF S128x512 S4096x512 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .bf16 = 32 ∨ (Rect.block (s := S4096x512) S128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S4096x512.size a
  hwx0_2 : ∀ i : grid0.Coords, EltTy.bits .bf16 = 32 ∨ (Rect.block (s := S4096x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_v5) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S4096x4096 : Shape := ⟨2, ![4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S512x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S512x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v18 : Ref sig .tc := ⟨.hbm, 46, rfl⟩
abbrev main_call3_cst : Ref sig .tc := ⟨.hbm, 47, rfl⟩
abbrev main_call3_v0 : Ref sig .tc := ⟨.hbm, 48, rfl⟩
abbrev main_call3_cst_0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_cst_1 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_3 : Ref sig .tc := ⟨.hbm, 65, rfl⟩
abbrev main_v23 : Ref sig .tc := ⟨.hbm, 66, rfl⟩
abbrev main_cst_4 : Ref sig .tc := ⟨.hbm, 67, rfl⟩
abbrev main_v24 : Ref sig .tc := ⟨.hbm, 68, rfl⟩
abbrev main_cst_5 : Ref sig .tc := ⟨.hbm, 69, rfl⟩
abbrev main_v25 : Ref sig .tc := ⟨.hbm, 70, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KBody.lean ====
/-
  The kernel's run (read at the word level as at any instance), part one: the body at a grid point.

  The pallas_call has five windows over THREE arrays: the row tile and the whole of the first normalized matrix
  (windows 0 and 1, one array), the same of the second (windows 2 and 3, one array), and the 128 rows of the result
  (window 4).  At a grid point the body reads the two row tiles and the two whole matrices and writes, for each of
  its 128 rows, one number: a function `tile` of the four blocks.  This module states what the body leaves in the
  result's staging buffer (`tile`), runs the body on whole staging buffers (`sound_kernel`), and states the proof
  data of the pipeline: each input window's buffer holds its block of the array at every point, fetched there or not
  (windows 1 and 3 have a constant block index and are fetched once), each array read by two windows is held half by
  each.
-/
import proofs.«124254_j31353261261533_1_alg».proof.Proof.Gen.Kernel.Launch
import proofs.«124254_j31353261261533_1_alg».proof.Proof.Gen.Kernel.Skeleton
import proofs.«124254_j31353261261533_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers at launch, as a valuation; -/
abbrev V₀ (c : Dev nD) : Valuation τ sig (Elt F) := fun b => (s₀ m ρ).mem ((c : Dev nD), b)
/-- after the first row-norm, -/
abbrev Va (c : Dev nD) : Valuation τ sig (Elt F) := StableHlo.after hostOps0 (V₀ m ρ c)
/-- after the first matrix is normalized, -/
abbrev Vb (c : Dev nD) : Valuation τ sig (Elt F) := StableHlo.after hostOps0_1 (Va m ρ c)
/-- after the second row-norm, -/
abbrev Vc (c : Dev nD) : Valuation τ sig (Elt F) := StableHlo.after hostOps0_2 (Vb m ρ c)
/-- and when the region is entered: both matrices normalized. -/
abbrev Vd (c : Dev nD) : Valuation τ sig (Elt F) := StableHlo.after hostOps0_3 (Vc m ρ c)

/-- The same, read at a TensorCore reference. -/
abbrev V (c : Dev nD) (b : Ref sig .tc) : Buf (Elt F) ((c : Thread nD τ).loc b) := Vd m ρ c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the body leaves in the result's buffer -/

abbrev rTile : Rect S128x512 := Rect.unit (s := S128x512) ![0, 0] S128x512.size inb_S128x512_S128x512_0_0
abbrev rFull : Rect S4096x512 := Rect.unit (s := S4096x512) ![0, 0] S4096x512.size inb_S4096x512_S4096x512_0_0
abbrev rOut : Rect S128x1 := Rect.unit (s := S128x1) ![0, 0] S128x1.size inb_S128x1_S128x1_0_0

/-- The result's staging buffer after the body, from the four input blocks: its one store. -/
def tile (x0 : Vec F S128x512 .bf16) (x1 : Vec F S4096x512 .bf16) (x2 : Vec F S128x512 .bf16) (x3 : Vec F S4096x512 .bf16) : Vec F S128x1 .f32 :=
  View.canon [⟨rOut, k0_pay1 (View.ld x0 rTile) (View.ld x2 rTile) (View.ld x1 rFull) (View.ld x3 rFull)⟩]

/-- The store covers the buffer. -/
theorem cover_out (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

/-! ## The body's triple -/

set_option maxHeartbeats 4000000 in
/-- The body on whole staging memrefs, the inputs' at read contents `xW` and the result's at anything, runs to the
    continuation holding the inputs' as they were and the result's at `tile` of them. -/
theorem sound_kernel (c : Dev nD) (E : Set ℕ) (i : grid0.Coords)
    (arg1 : Memref sig .tc .vmem S128x512 .bf16) (harg1 : arg1.IsWhole) (arg2 : Memref sig .tc .vmem S4096x512 .bf16) (harg2 : arg2.IsWhole)
    (arg3 : Memref sig .tc .vmem S128x512 .bf16) (harg3 : arg3.IsWhole) (arg4 : Memref sig .tc .vmem S4096x512 .bf16) (harg4 : arg4.IsWhole)
    (arg5 : Memref sig .tc .vmem S128x1 .f32) (harg5 : arg5.IsWhole)
    (x0 : Vec F S128x512 .bf16) (x1 : Vec F S4096x512 .bf16) (x2 : Vec F S128x512 .bf16) (x3 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (tile x0 x1 x2 x3)) -∗ K ⟨⟩))
      ⊢ wp frame (wpE (defs₀ (F := F)) Variants.none c none) E (cc0__kl_kernel i arg1 harg1 arg2 harg2 arg3 harg3 arg4 harg4 arg5 harg5) K := by
  simp only [cc0__kl_kernel_eq_skeleton]; unfold cc0__kl_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _)

/-! ## The pipeline's proof data -/

/-- The proof data on core `c`: the arrays as the region finds them; after the body at point `t` each input's
    buffer at its block and the result's at `tile` of the four blocks; the invariant the scoped buffers no window
    stages; nothing owed; an array two windows read held half by each. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => tile (iblk m ρ c 0 t) (iblk m ρ c 1 t) (iblk m ρ c 2 t) (iblk m ρ c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) :
    (dats m ρ 0 c).after 4 t = tile (iblk m ρ c 0 t) (iblk m ρ c 1 t) (iblk m ρ c 2 t) (iblk m ρ c 3 t) := by dsimp only [dats]

/-- An input window's current staging buffer holds its block at every point, fetched there or not: unfetched, the
    block index has not moved and the body left the block in place. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t))

/-- The body at any point: the inputs' buffers hold their blocks, so `sound_kernel` applies; the invariant and the
    core's `owes` pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m ρ c 0 t) (iblk m ρ c 1 t) (iblk m ρ c 2 t) (iblk m ρ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KShare.lean ====
/-
  The kernel's run (read at the word level as at any instance), part two: the three arrays behind the five windows.

  Windows 0 and 1 read one array (the first normalized matrix), windows 2 and 3 another (the second); the result's
  window 4 has its own.  The pipeline holds each input window's array at that window's share, so an array two windows
  read is held HALF by each; whole, at the full share, it is the two halves together.  This module states that
  exchange in both directions: at the region's entry (the three buffers whole become the five windows' arrays) and at
  its exit (the five windows' arrays, the inputs' unchanged and the result's as the write-backs left it, become the
  three buffers whole again).
-/
import proofs.«124254_j31353261261533_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five windows' arrays one by one, at their shares. -/
theorem arrays_chain (c : Dev nD) (G : (w : Fin cfg0.W) → Buf (Elt F) ((cfg0.win w).arr.view.loc (c.tc : Thread nD τ))) :
    ((dats m ρ 0 c).arrays G : sProp 𝕄) = iprop(
      (((c : Thread nD τ).loc main_v5) ↦{fullShare.left} G 0) ∗ (((c : Thread nD τ).loc main_v5) ↦{fullShare.right} G 1)
      ∗ (((c : Thread nD τ).loc main_v11) ↦{fullShare.left} G 2) ∗ (((c : Thread nD τ).loc main_v11) ↦{fullShare.right} G 3)
      ∗ (((c : Thread nD τ).loc main_v12) ↦{fullShare} G 4)) := by
  unfold Dat.arrays
  rw [bigSep_W0]
  rw [(arr_whole0 0).set_eq_univ, (arr_whole0 2).set_eq_univ, (arr_whole0 4).set_eq_univ]
  rfl

/-- The three buffers behind the windows' arrays, whole. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v11) ↦{fullShare} W main_v11)
          ∗ (((c : Thread nD τ).loc main_v12) ↦{fullShare} W main_v12)) := by
  unfold Pipeline.arrBufs
  exact bigSep_eq_bigSepL_of_eq [main_v5, main_v11, main_v12] (by decide) (by decide) _

/-! ## The buffers when the region is left -/

/-- The result's array after every write-back. -/
def outArr (c : Dev nD) : Buf (Elt F) ((c : Thread nD τ).loc main_v12) := (dats m ρ 0 c).arrAt 4 cfg0.N

/-- The buffers when the region is left: the result's array as the write-backs left it, every other as the region
    found it. -/
def Ve (c : Dev nD) : Valuation τ sig (Elt F) := Function.update (Vd m ρ c) (Proc.devRef .tc main_v12) (outArr m ρ c)

theorem Ve_out (c : Dev nD) : Ve m ρ c (Proc.devRef .tc main_v12) = outArr m ρ c := by
  unfold Ve; exact Function.update_self _ _ _

theorem Ve_of_ne (c : Dev nD) (b : Ref sig .tc) (h : b ≠ main_v12) : Ve m ρ c (Proc.devRef .tc b) = Vd m ρ c (Proc.devRef .tc b) := by
  unfold Ve; exact Function.update_of_ne (StableHlo.devRef_ne_of_ne h) _ _

/-! ## Entry and exit -/

/-- ENTRY: the unscoped buffers whole, as the host operations left them, are the five windows' arrays at the entry
    contents, each array two windows read split into its halves, and the buffers no window reads. -/
theorem entry_split (c : Dev nD) :
    (StableHlo.held (c : Thread nD τ) (Pipeline.ucRefs τ sig) (Vd m ρ c) : sProp 𝕄)
      ⊢ iprop((dats m ρ 0 c).arrays ((dats m ρ 0 c).arrAt · 0)
          ∗ Pipeline.unscopedRest (Ix := Unit) (Name := ℕ) (U := UR sig nD τ) (Lvl := ℕ) spec0 c (V m ρ c)) := by
  rw [← Pipeline.unscopedBufs_held (Ix := Unit) (Name := ℕ) (U := UR sig nD τ) (Lvl := ℕ) c (Vd m ρ c)]
  rw [Pipeline.unscopedBufs_split₀ cfgs 0 winFacts₀0.arr_unscoped c (V m ρ c)]
  rw [arrBufs_chain, arrays_chain]
  iintro ⟨⟨H5, H11, H12⟩, Hr⟩
  ihave H5' := (pointsTo_share (PosShare.mem_left_op_right fullShare)).1 $$ H5
  icases H5' with ⟨H5l, H5r⟩
  ihave H11' := (pointsTo_share (PosShare.mem_left_op_right fullShare)).1 $$ H11
  icases H11' with ⟨H11l, H11r⟩
  isplitr [Hr]
  · isplitl [H5l]; · iexact H5l
    isplitl [H5r]; · iexact H5r
    isplitl [H11l]; · iexact H11l
    isplitl [H11r]; · iexact H11r
    iexact H12
  iexact Hr

/-- The buffers no window reads are the same when the region is left. -/
theorem rest_eq (c : Dev nD) :
    (Pipeline.unscopedRest (Ix := Unit) (Name := ℕ) (U := UR sig nD τ) (Lvl := ℕ) spec0 c (fun b => Ve m ρ c b) : sProp 𝕄)
      = Pipeline.unscopedRest spec0 c (V m ρ c) := by
  unfold Pipeline.unscopedRest
  refine bigSep_congr fun b hb => ?_
  have hne : b ≠ main_v12 := fun e => (Finset.mem_sdiff.mp hb).2 (e ▸ Finset.mem_image.mpr ⟨4, Finset.mem_univ _, rfl⟩)
  beta_reduce
  rw [Ve_of_ne m ρ c b hne]

/-- EXIT: the five windows' arrays after the last point — an input's as it was entered, the result's as the
    write-backs left it — and the buffers no window reads are the unscoped buffers whole again. -/
theorem exit_join (c : Dev nD) :
    iprop((dats m ρ 0 c).arrays ((dats m ρ 0 c).arrAt · cfg0.N)
        ∗ Pipeline.unscopedRest (Ix := Unit) (Name := ℕ) (U := UR sig nD τ) (Lvl := ℕ) spec0 c (V m ρ c))
      ⊢ (StableHlo.held (c : Thread nD τ) (Pipeline.ucRefs τ sig) (Ve m ρ c) : sProp 𝕄) := by
  rw [← Pipeline.unscopedBufs_held (Ix := Unit) (Name := ℕ) (U := UR sig nD τ) (Lvl := ℕ) c (Ve m ρ c)]
  rw [Pipeline.unscopedBufs_split₀ cfgs 0 winFacts₀0.arr_unscoped c (fun b => Ve m ρ c b)]
  rw [arrBufs_chain, arrays_chain, rest_eq]
  rw [Ve_of_ne m ρ c main_v5 (by decide), Ve_of_ne m ρ c main_v11 (by decide), Ve_out]
  rw [(dats m ρ 0 c).arrAt_in 0 rfl, (dats m ρ 0 c).arrAt_in 1 rfl, (dats m ρ 0 c).arrAt_in 2 rfl, (dats m ρ 0 c).arrAt_in 3 rfl]
  iintro ⟨⟨H5l, H5r, H11l, H11r, H12⟩, Hr⟩
  isplitr [Hr]
  · isplitl [H5l H5r]
    · iapply (pointsTo_share (PosShare.mem_left_op_right fullShare)).2
      isplitl [H5l]; · iexact H5l
      iexact H5r
    isplitl [H11l H11r]
    · iapply (pointsTo_share (PosShare.mem_left_op_right fullShare)).2
      isplitl [H11l]; · iexact H11l
      iexact H11r
    iexact H12
  iexact Hr

end Cert.Kernel.Hand

end
-- ==== Proof.KRun.lean ====
/-
  The kernel's run (read at the word level as at any instance), part three: @main as a list of segments.

  @main is four stretches of host operations (each matrix divided by its clamped row norms), the region, and one more
  stretch (the mean of the region's result).  Each stretch runs within the unscoped buffers held whole; the region is
  entered from them by `entry_split` and left to them by `exit_join`.  The run ends with every unscoped buffer at the
  fold of the operations over the launch contents, the region's result in between.
-/
import proofs.«124254_j31353261261533_1_alg».proof.Proof.KShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through @main: the core owes nothing. -/
abbrev R (c : Dev nD) : sProp 𝕄 := iprop(∃ W, owes (c : Thread nD τ) (0 : CellTallies nD τ sig Unit) W)

/-- The buffers at the end: the mean taken. -/
abbrev Vf (c : Dev nD) : Valuation τ sig (Elt F) := StableHlo.after hostOps1 (Ve m ρ c)

/-- A stretch of host operations over the unscoped buffers. -/
def hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hf W R

def segA := hostSeg (F := F) hostOps0 hostOps0_sub
  (by intro _ h; (repeat (cases h with | head => rfl | tail _ h => ?_)); exact nomatch h) (V₀ m ρ)
def segB := hostSeg (F := F) hostOps0_1 hostOps0_1_sub
  (by intro _ h; (repeat (cases h with | head => rfl | tail _ h => ?_)); exact nomatch h) (Va m ρ)
def segC := hostSeg (F := F) hostOps0_2 hostOps0_2_sub
  (by intro _ h; (repeat (cases h with | head => rfl | tail _ h => ?_)); exact nomatch h) (Vb m ρ)
def segD := hostSeg (F := F) hostOps0_3 hostOps0_3_sub
  (by intro _ h; (repeat (cases h with | head => rfl | tail _ h => ?_)); exact nomatch h) (Vc m ρ)
def segE := hostSeg (F := F) hostOps1 hostOps1_sub
  (by intro _ h; (repeat (cases h with | head => rfl | tail _ h => ?_)); exact nomatch h) (Ve m ρ)

set_option backward.isDefEq.respectTransparency.types false in
/-- THE REGION: entered from the unscoped buffers as the fourth stretch left them, left with the result's array as
    the write-backs left it and every other buffer untouched. -/
def reg : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (Vd m ρ c) ∗ R c)
  post c := iprop(StableHlo.held (c : Thread nD τ) (Pipeline.ucRefs τ sig) (Ve m ρ c) ∗ R c)
  X c := iprop(emp)
  Y c := iprop(emp)
  Z c := Pipeline.unscopedRest (Ix := Unit) (Name := ℕ) (U := UR sig nD τ) (Lvl := ℕ) spec0 c (V m ρ c)
  hentry c := by
    iintro ⟨⟨Hub, HO⟩, -, -⟩
    ihave H := (entry_split m ρ c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    imodintro
    isplitr [HO]
    · iapply (exit_join m ρ c)
      isplitl [Ha]; · iexact Ha
      iexact HZ
    · unfold Pipeline.Dat.owesAt Pipeline.owesWithin
      icases HO with ⟨%W, -, HO⟩; iexists W; iexact HO

/-- @main as the list of the six. -/
abbrev segs : List (Pipeline.Seg (pcfgs (F := F)) adm (dats m ρ) () defs₀ 𝒱₀ L lv) :=
  [.host (segA m ρ), .host (segB m ρ), .host (segC m ρ), .host (segD m ρ), .region (reg m ρ), .host (segE m ρ)]

/-- The run's post: every unscoped buffer at the fold of @main's operations, the region's result in between. -/
def QC : PUnit × MemSt nD τ sig (Elt F) → Prop := fun r =>
  ∀ c : Dev nD, ∀ b ∈ Pipeline.ucRefs τ sig, r.2.mem ((c : Thread nD τ).1, b) = Vf m ρ c b

set_option backward.isDefEq.respectTransparency.types false in
/-- At the compiled mesh, for any float values, from any memory with zero counters: every weakly fair execution of
    @main on the TensorCores terminates, and every final state has each unscoped buffer at `Vf`. -/
theorem run_main : θ_run defs (onTc (τ := τ) (main (F := F))) (s₀ m ρ) (QC m ρ) :=
  Pipeline.θ_run_regions_kit (pcfgs (F := F)) adm (dats m ρ) () cellOf_inj emb₁ defs₀ 𝒱₀ L lv m ρ main (segs m ρ)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vf m ρ c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vf m ρ c b)
    (hfin := fun c s' => by
      unfold StableHlo.held
      iintro ⟨H, HSI⟩
      ihave Hr := (pointsTo_read_all (Pipeline.ucRefs τ sig) (fun b => ((c : Thread nD τ).1, b)) (Vf m ρ c) s') $$ [H HSI]
      · isplitl [H] <;> iassumption
      icases Hr with ⟨%h, HSI⟩
      imodintro
      isplitr; · ipureintro; exact h
      iexact HSI)
    (hQ := fun _ h => h)

/-- info: 'Cert.Kernel.Hand.run_main' depends on axioms: [propext, Classical.choice, Quot.sound] -/
#guard_msgs in #print axioms run_main

end Cert.Kernel.Hand

end
-- ==== Proof.KVal.lean ====
/-
  The kernel's run (read at the word level as at any instance), part four: what the buffers hold at the end.

  No host operation writes an argument, so both end as launched (the frame).  The result is the mean of the region's
  result array, and that array, row by row, is the body's value on the tile that holds the row: every grid point
  writes back its 128 rows and the 32 points cover the 4096.  The two matrices the region reads are the arguments
  divided by their clamped row norms.
-/
import proofs.«124254_j31353261261533_1_alg».proof.Proof.KRun
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The arguments end as launched -/

theorem mem_uc (b : Ref sig .tc) (h : ¬ (Proc.devRef (τ := τ) .tc b).isScoped = true) : Proc.devRef (τ := τ) .tc b ∈ Pipeline.ucRefs τ sig :=
  Finset.mem_filter.mpr ⟨StableHlo.devRef_mem_tcRefs b, h⟩

/-- No host operation writes the first argument, -/
theorem Vf_arg0 (c : Dev nD) : Vf m ρ c (Proc.devRef .tc main_arg0) = m ((c : Thread nD τ).loc main_arg0) := by
  show StableHlo.after hostOps1 (Ve m ρ c) (Proc.devRef .tc main_arg0) = _
  after_results
  rw [Ve_of_ne m ρ c main_arg0 (by decide)]
  show StableHlo.after hostOps0_3 (Vc m ρ c) (Proc.devRef .tc main_arg0) = _
  after_results
/-- nor the second. -/
theorem Vf_arg1 (c : Dev nD) : Vf m ρ c (Proc.devRef .tc main_arg1) = m ((c : Thread nD τ).loc main_arg1) := by
  show StableHlo.after hostOps1 (Ve m ρ c) (Proc.devRef .tc main_arg1) = _
  after_results
  rw [Ve_of_ne m ρ c main_arg1 (by decide)]
  show StableHlo.after hostOps0_3 (Vc m ρ c) (Proc.devRef .tc main_arg1) = _
  after_results

/-- THE FRAME: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (Vf_arg0 m ρ c),
      (h c _ (mem_uc main_arg1 (by decide))).trans (Vf_arg1 m ρ c)⟩) (run_main m ρ)

/-! ## The result is the mean of the region's result -/

/-- The mean of 4096 numbers held as a column. -/
def meanOf (k : (⟨S4096x1, .f32⟩ : BufTy).Contents (Elt F)) : (⟨S_, .f32⟩ : BufTy).Contents (Elt F) :=
  Host.divf (Host.reduceAdd k (constant S_ .f32 0x00000000#32) reducesTo_S4096x1_S_d0_1 h_S_) (constant S_ .f32 0x45800000#32)

theorem Vf_out (c : Dev nD) : Vf m ρ c (Proc.devRef .tc main_v14) = meanOf (outArr m ρ c) := by
  show StableHlo.after hostOps1 (Ve m ρ c) (Proc.devRef .tc main_v14) = _
  after_results
  rw [Ve_out]
  rfl

/-! ## The matrices the region reads -/

/-- A matrix with each row divided by its norm, the norm clamped from below. -/
def normalize (x : (⟨S4096x512, .f32⟩ : BufTy).Contents (Elt F)) : (⟨S4096x512, .bf16⟩ : BufTy).Contents (Elt F) :=
  truncf .bf16 (Host.divf x (broadcastInDim S4096x512 ![0, 1] bcast_S4096x1_S4096x512_0_1
    (maximumf (Host.sqrt (broadcastInDim S4096x1 ![0] bcast_S4096_S4096x1_0
        (Host.reduceAdd (mulf x x) (constant S_ .f32 0x00000000#32) reducesTo_S4096x512_S4096_d1 h_S_)))
      (broadcastInDim S4096x1 ![] bcast_S_S4096x1 (constant S_ .f32 0x322BCC77#32))))) bitsLt_bf16_f32

theorem V_v5 (c : Dev nD) : V m ρ c main_v5 = normalize (m ((c : Thread nD τ).loc main_arg0)) := by
  show StableHlo.after hostOps0_3 (Vc m ρ c) (Proc.devRef .tc main_v5) = _
  after_results
  rfl

theorem V_v11 (c : Dev nD) : V m ρ c main_v11 = normalize (m ((c : Thread nD τ).loc main_arg1)) := by
  show StableHlo.after hostOps0_3 (Vc m ρ c) (Proc.devRef .tc main_v11) = _
  after_results
  rfl

/-! ## The region's result, row by row -/

/-- The grid point whose block holds row `i 0`, -/
def ptOf (i : S4096x1.Idx) : Fin cfg0.N :=
  ⟨(i 0).val / 128, by have h : (i 0).val < 4096 := (i 0).isLt; show (i 0).val / 128 < grid0.N; rw [N_0]; omega⟩
/-- and the row's place in that block. -/
def locOf (i : S4096x1.Idx) : S128x1.Idx :=
  ix2 (⟨(i 0).val % 128, Nat.mod_lt _ (by norm_num)⟩ : Fin 128) (⟨0, by norm_num⟩ : Fin 1)

/-- The region's result as one function of the two matrices it reads: at row `r`, the body's value on the blocks of
    the grid point whose tile holds `r`, at `r`'s place in the tile. -/
def G4 (X Y : Vec F S4096x512 .bf16) : S4096x1.Idx → Elt F .f32 := fun i =>
  k0_pay1 (((cfg0.win 0).blk (ptOf i)).view.read (Elt F) X) (((cfg0.win 2).blk (ptOf i)).view.read (Elt F) Y)
    (((cfg0.win 1).blk (ptOf i)).view.read (Elt F) X) (((cfg0.win 3).blk (ptOf i)).view.read (Elt F) Y) (locOf i)

theorem hz : (![0, 0] : Fin 2 → Nat) = fun _ => 0 := funext fun a => by fin_cases a <;> rfl

/-- The result window's block index at point `t` is `(t, 0)`. -/
theorem idx4 : ∀ t : Fin cfg0.N, win0_4.index t (0 : Fin 2) = t.val ∧ win0_4.index t (1 : Fin 2) = 0 :=
  (by decide +kernel : ∀ t : Fin grid0.N, _)

/-- WHAT POINT `t` WRITES BACK is block `t` of `G4` of the two matrices as the region finds them. -/
theorem flushed_eq (c : Dev nD) (t : Fin cfg0.N) :
    (dats m ρ 0 c).flushed 4 t = ((cfg0.win 4).blk t).view.read (Elt F) (G4 (V m ρ c main_v5) (V m ρ c main_v11)) := by
  show (cfg0.win 4).cut (grid0.coords t) ((dats m ρ 0 c).after 4 t) = _
  rw [after_4]
  unfold tile
  rw [View.canon_unit_zero hz]
  simp only [View.ld_unit_zero (S := S128x512) hz, View.ld_unit_zero (S := S4096x512) hz]
  obtain ⟨e0, e1⟩ := idx4 t
  funext j
  show k0_pay1 (iblk m ρ c 0 t) (iblk m ρ c 2 t) (iblk m ρ c 1 t) (iblk m ρ c 3 t) j
    = G4 (V m ρ c main_v5) (V m ρ c main_v11) (((cfg0.win 4).blk t).view.emb j)
  have h0 : ((((cfg0.win 4).blk t).view.emb j) 0).val = win0_4.index t (0 : Fin 2) * 128 + 1 * (j 0).val := rfl
  have hj0 : (j 0).val < 128 := (j 0).isLt
  have hj1 : (j 1).val < 1 := (j 1).isLt
  have hp : ptOf (((cfg0.win 4).blk t).view.emb j) = t := Fin.ext (by
    show ((((cfg0.win 4).blk t).view.emb j) 0).val / 128 = t.val
    rw [h0, e0]; omega)
  have hl : locOf (((cfg0.win 4).blk t).view.emb j) = j := by
    funext a; apply Fin.ext
    match a with
    | ⟨0, _⟩ => show ((((cfg0.win 4).blk t).view.emb j) 0).val % 128 = (j 0).val; rw [h0, e0]; omega
    | ⟨1, _⟩ => show 0 = (j 1).val; omega
  unfold G4
  rw [hp, hl]
  rfl

/-- An index of the result array is in point `t`'s block iff each coordinate is in the block's range on its axis. -/
theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v12).slice (win0_4.rect t)).set ↔ _
  rw [View.set_slice_whole, Rect.mem_set_unit]
  exact Iff.rfl

/-- Every row is in the block of the point `row / 128`. -/
theorem cover4 (i : S4096x1.Idx) : ∃ t : Fin cfg0.N, (cfg0.win 4).flush t = true ∧ i ∈ ((cfg0.win 4).blk t).view.set := by
  refine ⟨ptOf i, flush0_4 _, ?_⟩
  rw [mem_blk4]
  obtain ⟨e0, e1⟩ := idx4 (ptOf i)
  have hi1 : (i 1).val < 1 := (i 1).isLt
  have hp : (ptOf i).val = (i 0).val / 128 := rfl
  intro a
  match a with
  | ⟨0, _⟩ => show win0_4.index (ptOf i) (0 : Fin 2) * 128 ≤ (i 0).val ∧ (i 0).val < win0_4.index (ptOf i) (0 : Fin 2) * 128 + 128; rw [e0, hp]; omega
  | ⟨1, _⟩ => show win0_4.index (ptOf i) (1 : Fin 2) * 1 ≤ (i 1).val ∧ (i 1).val < win0_4.index (ptOf i) (1 : Fin 2) * 1 + 1; rw [e1]; omega

/-- THE RESULT ARRAY after the run: `G4` of the two normalized arguments. -/
theorem outArr_eq (c : Dev nD) :
    outArr m ρ c = G4 (normalize (m ((c : Thread nD τ).loc main_arg0))) (normalize (m ((c : Thread nD τ).loc main_arg1))) := by
  unfold outArr
  rw [(dats m ρ 0 c).arrAt_eq_of_cover 4 (G4 (V m ρ c main_v5) (V m ρ c main_v11)) (fun t _ => flushed_eq m ρ c t) cover4, V_v5, V_v11]

/-! ## The run, read -/

/-- The run re-posted: the result at the mean of `G4` of the normalized arguments, the arguments unchanged. -/
theorem run : θ_run defs (onTc (τ := τ) (main (F := F))) ⟨m, fun _ => 0, ρ⟩ fun r => ∀ c : Dev nD,
      r.2.mem ((c.tc : Thread nD τ).loc main_v14)
        = meanOf (G4 (normalize (m ((c : Thread nD τ).loc main_arg0))) (normalize (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c _ (mem_uc main_v14 (by decide))).trans ((Vf_out m ρ c).trans (by rw [outArr_eq])),
      (h c _ (mem_uc main_arg0 (by decide))).trans (Vf_arg0 m ρ c),
      (h c _ (mem_uc main_arg1 (by decide))).trans (Vf_arg1 m ρ c)⟩) (run_main m ρ)

end Cert.Kernel.Hand

end
-- ==== Proof.KIBody.lean ====
/-
  The idealized kernel's run, part one: the body at a grid point.

  The pallas_call has five windows over THREE arrays: the row tile and the whole of the first normalized matrix
  (windows 0 and 1, one array), the same of the second (windows 2 and 3, one array), and the 128 rows of the result
  (window 4).  At a grid point the body reads the two row tiles and the two whole matrices and writes, for each of
  its 128 rows, one number: a function `tile` of the four blocks.  This module states what the body leaves in the
  result's staging buffer (`tile`), runs the body on whole staging buffers (`sound_kernel`), and states the proof
  data of the pipeline: each input window's buffer holds its block of the array at every point, fetched there or not
  (windows 1 and 3 have a constant block index and are fetched once), each array read by two windows is held half by
  each.
-/
import proofs.«124254_j31353261261533_1_alg».proof.Proof.Gen.KernelIdeal.Launch
import proofs.«124254_j31353261261533_1_alg».proof.Proof.Gen.KernelIdeal.Skeleton
import proofs.«124254_j31353261261533_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers at launch, as a valuation; -/
abbrev V₀ (c : Dev nD) : Valuation τ sig (Elt F) := fun b => (s₀ m ρ).mem ((c : Dev nD), b)
/-- after the first row-norm, -/
abbrev Va (c : Dev nD) : Valuation τ sig (Elt F) := StableHlo.after hostOps0 (V₀ m ρ c)
/-- after the first matrix is normalized, -/
abbrev Vb (c : Dev nD) : Valuation τ sig (Elt F) := StableHlo.after hostOps0_1 (Va m ρ c)
/-- after the second row-norm, -/
abbrev Vc (c : Dev nD) : Valuation τ sig (Elt F) := StableHlo.after hostOps0_2 (Vb m ρ c)
/-- and when the region is entered: both matrices normalized. -/
abbrev Vd (c : Dev nD) : Valuation τ sig (Elt F) := StableHlo.after hostOps0_3 (Vc m ρ c)

/-- The same, read at a TensorCore reference. -/
abbrev V (c : Dev nD) (b : Ref sig .tc) : Buf (Elt F) ((c : Thread nD τ).loc b) := Vd m ρ c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the body leaves in the result's buffer -/

abbrev rTile : Rect S128x512 := Rect.unit (s := S128x512) ![0, 0] S128x512.size inb_S128x512_S128x512_0_0
abbrev rFull : Rect S4096x512 := Rect.unit (s := S4096x512) ![0, 0] S4096x512.size inb_S4096x512_S4096x512_0_0
abbrev rOut : Rect S128x1 := Rect.unit (s := S128x1) ![0, 0] S128x1.size inb_S128x1_S128x1_0_0

/-- The result's staging buffer after the body, from the four input blocks: its one store. -/
def tile (x0 : Vec F S128x512 .bf16) (x1 : Vec F S4096x512 .bf16) (x2 : Vec F S128x512 .bf16) (x3 : Vec F S4096x512 .bf16) : Vec F S128x1 .f32 :=
  View.canon [⟨rOut, k0_pay1 (View.ld x0 rTile) (View.ld x2 rTile) (View.ld x1 rFull) (View.ld x3 rFull)⟩]

/-- The store covers the buffer. -/
theorem cover_out (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

/-! ## The body's triple -/

set_option maxHeartbeats 4000000 in
/-- The body on whole staging memrefs, the inputs' at read contents `xW` and the result's at anything, runs to the
    continuation holding the inputs' as they were and the result's at `tile` of them. -/
theorem sound_kernel (c : Dev nD) (E : Set ℕ) (i : grid0.Coords)
    (arg1 : Memref sig .tc .vmem S128x512 .bf16) (harg1 : arg1.IsWhole) (arg2 : Memref sig .tc .vmem S4096x512 .bf16) (harg2 : arg2.IsWhole)
    (arg3 : Memref sig .tc .vmem S128x512 .bf16) (harg3 : arg3.IsWhole) (arg4 : Memref sig .tc .vmem S4096x512 .bf16) (harg4 : arg4.IsWhole)
    (arg5 : Memref sig .tc .vmem S128x1 .f32) (harg5 : arg5.IsWhole)
    (x0 : Vec F S128x512 .bf16) (x1 : Vec F S4096x512 .bf16) (x2 : Vec F S128x512 .bf16) (x3 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (tile x0 x1 x2 x3)) -∗ K ⟨⟩))
      ⊢ wp frame (wpE (defs₀ (F := F)) Variants.none c none) E (cc0__kl_kernel i arg1 harg1 arg2 harg2 arg3 harg3 arg4 harg4 arg5 harg5) K := by
  simp only [cc0__kl_kernel_eq_skeleton]; unfold cc0__kl_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _)

/-! ## The pipeline's proof data -/

/-- The proof data on core `c`: the arrays as the region finds them; after the body at point `t` each input's
    buffer at its block and the result's at `tile` of the four blocks; the invariant the scoped buffers no window
    stages; nothing owed; an array two windows read held half by each. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => tile (iblk m ρ c 0 t) (iblk m ρ c 1 t) (iblk m ρ c 2 t) (iblk m ρ c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) :
    (dats m ρ 0 c).after 4 t = tile (iblk m ρ c 0 t) (iblk m ρ c 1 t) (iblk m ρ c 2 t) (iblk m ρ c 3 t) := by dsimp only [dats]

/-- An input window's current staging buffer holds its block at every point, fetched there or not: unfetched, the
    block index has not moved and the body left the block in place. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t))

/-- The body at any point: the inputs' buffers hold their blocks, so `sound_kernel` applies; the invariant and the
    core's `owes` pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m ρ c 0 t) (iblk m ρ c 1 t) (iblk m ρ c 2 t) (iblk m ρ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KIShare.lean ====
/-
  The idealized kernel's run, part two: the three arrays behind the five windows.

  Windows 0 and 1 read one array (the first normalized matrix), windows 2 and 3 another (the second); the result's
  window 4 has its own.  The pipeline holds each input window's array at that window's share, so an array two windows
  read is held HALF by each; whole, at the full share, it is the two halves together.  This module states that
  exchange in both directions: at the region's entry (the three buffers whole become the five windows' arrays) and at
  its exit (the five windows' arrays, the inputs' unchanged and the result's as the write-backs left it, become the
  three buffers whole again).
-/
import proofs.«124254_j31353261261533_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five windows' arrays one by one, at their shares. -/
theorem arrays_chain (c : Dev nD) (G : (w : Fin cfg0.W) → Buf (Elt F) ((cfg0.win w).arr.view.loc (c.tc : Thread nD τ))) :
    ((dats m ρ 0 c).arrays G : sProp 𝕄) = iprop(
      (((c : Thread nD τ).loc main_v5) ↦{fullShare.left} G 0) ∗ (((c : Thread nD τ).loc main_v5) ↦{fullShare.right} G 1)
      ∗ (((c : Thread nD τ).loc main_v11) ↦{fullShare.left} G 2) ∗ (((c : Thread nD τ).loc main_v11) ↦{fullShare.right} G 3)
      ∗ (((c : Thread nD τ).loc main_v12) ↦{fullShare} G 4)) := by
  unfold Dat.arrays
  rw [bigSep_W0]
  rw [(arr_whole0 0).set_eq_univ, (arr_whole0 2).set_eq_univ, (arr_whole0 4).set_eq_univ]
  rfl

/-- The three buffers behind the windows' arrays, whole. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v11) ↦{fullShare} W main_v11)
          ∗ (((c : Thread nD τ).loc main_v12) ↦{fullShare} W main_v12)) := by
  unfold Pipeline.arrBufs
  exact bigSep_eq_bigSepL_of_eq [main_v5, main_v11, main_v12] (by decide) (by decide) _

/-! ## The buffers when the region is left -/

/-- The result's array after every write-back. -/
def outArr (c : Dev nD) : Buf (Elt F) ((c : Thread nD τ).loc main_v12) := (dats m ρ 0 c).arrAt 4 cfg0.N

/-- The buffers when the region is left: the result's array as the write-backs left it, every other as the region
    found it. -/
def Ve (c : Dev nD) : Valuation τ sig (Elt F) := Function.update (Vd m ρ c) (Proc.devRef .tc main_v12) (outArr m ρ c)

theorem Ve_out (c : Dev nD) : Ve m ρ c (Proc.devRef .tc main_v12) = outArr m ρ c := by
  unfold Ve; exact Function.update_self _ _ _

theorem Ve_of_ne (c : Dev nD) (b : Ref sig .tc) (h : b ≠ main_v12) : Ve m ρ c (Proc.devRef .tc b) = Vd m ρ c (Proc.devRef .tc b) := by
  unfold Ve; exact Function.update_of_ne (StableHlo.devRef_ne_of_ne h) _ _

/-! ## Entry and exit -/

/-- ENTRY: the unscoped buffers whole, as the host operations left them, are the five windows' arrays at the entry
    contents, each array two windows read split into its halves, and the buffers no window reads. -/
theorem entry_split (c : Dev nD) :
    (StableHlo.held (c : Thread nD τ) (Pipeline.ucRefs τ sig) (Vd m ρ c) : sProp 𝕄)
      ⊢ iprop((dats m ρ 0 c).arrays ((dats m ρ 0 c).arrAt · 0)
          ∗ Pipeline.unscopedRest (Ix := Unit) (Name := ℕ) (U := UR sig nD τ) (Lvl := ℕ) spec0 c (V m ρ c)) := by
  rw [← Pipeline.unscopedBufs_held (Ix := Unit) (Name := ℕ) (U := UR sig nD τ) (Lvl := ℕ) c (Vd m ρ c)]
  rw [Pipeline.unscopedBufs_split₀ cfgs 0 winFacts₀0.arr_unscoped c (V m ρ c)]
  rw [arrBufs_chain, arrays_chain]
  iintro ⟨⟨H5, H11, H12⟩, Hr⟩
  ihave H5' := (pointsTo_share (PosShare.mem_left_op_right fullShare)).1 $$ H5
  icases H5' with ⟨H5l, H5r⟩
  ihave H11' := (pointsTo_share (PosShare.mem_left_op_right fullShare)).1 $$ H11
  icases H11' with ⟨H11l, H11r⟩
  isplitr [Hr]
  · isplitl [H5l]; · iexact H5l
    isplitl [H5r]; · iexact H5r
    isplitl [H11l]; · iexact H11l
    isplitl [H11r]; · iexact H11r
    iexact H12
  iexact Hr

/-- The buffers no window reads are the same when the region is left. -/
theorem rest_eq (c : Dev nD) :
    (Pipeline.unscopedRest (Ix := Unit) (Name := ℕ) (U := UR sig nD τ) (Lvl := ℕ) spec0 c (fun b => Ve m ρ c b) : sProp 𝕄)
      = Pipeline.unscopedRest spec0 c (V m ρ c) := by
  unfold Pipeline.unscopedRest
  refine bigSep_congr fun b hb => ?_
  have hne : b ≠ main_v12 := fun e => (Finset.mem_sdiff.mp hb).2 (e ▸ Finset.mem_image.mpr ⟨4, Finset.mem_univ _, rfl⟩)
  beta_reduce
  rw [Ve_of_ne m ρ c b hne]

/-- EXIT: the five windows' arrays after the last point — an input's as it was entered, the result's as the
    write-backs left it — and the buffers no window reads are the unscoped buffers whole again. -/
theorem exit_join (c : Dev nD) :
    iprop((dats m ρ 0 c).arrays ((dats m ρ 0 c).arrAt · cfg0.N)
        ∗ Pipeline.unscopedRest (Ix := Unit) (Name := ℕ) (U := UR sig nD τ) (Lvl := ℕ) spec0 c (V m ρ c))
      ⊢ (StableHlo.held (c : Thread nD τ) (Pipeline.ucRefs τ sig) (Ve m ρ c) : sProp 𝕄) := by
  rw [← Pipeline.unscopedBufs_held (Ix := Unit) (Name := ℕ) (U := UR sig nD τ) (Lvl := ℕ) c (Ve m ρ c)]
  rw [Pipeline.unscopedBufs_split₀ cfgs 0 winFacts₀0.arr_unscoped c (fun b => Ve m ρ c b)]
  rw [arrBufs_chain, arrays_chain, rest_eq]
  rw [Ve_of_ne m ρ c main_v5 (by decide), Ve_of_ne m ρ c main_v11 (by decide), Ve_out]
  rw [(dats m ρ 0 c).arrAt_in 0 rfl, (dats m ρ 0 c).arrAt_in 1 rfl, (dats m ρ 0 c).arrAt_in 2 rfl, (dats m ρ 0 c).arrAt_in 3 rfl]
  iintro ⟨⟨H5l, H5r, H11l, H11r, H12⟩, Hr⟩
  isplitr [Hr]
  · isplitl [H5l H5r]
    · iapply (pointsTo_share (PosShare.mem_left_op_right fullShare)).2
      isplitl [H5l]; · iexact H5l
      iexact H5r
    isplitl [H11l H11r]
    · iapply (pointsTo_share (PosShare.mem_left_op_right fullShare)).2
      isplitl [H11l]; · iexact H11l
      iexact H11r
    iexact H12
  iexact Hr

end Cert.KernelIdeal.Hand

end
-- ==== Proof.KIRun.lean ====
/-
  The idealized kernel's run, part three: @main as a list of segments.

  @main is four stretches of host operations (each matrix divided by its clamped row norms), the region, and one more
  stretch (the mean of the region's result).  Each stretch runs within the unscoped buffers held whole; the region is
  entered from them by `entry_split` and left to them by `exit_join`.  The run ends with every unscoped buffer at the
  fold of the operations over the launch contents, the region's result in between.
-/
import proofs.«124254_j31353261261533_1_alg».proof.Proof.KIShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through @main: the core owes nothing. -/
abbrev R (c : Dev nD) : sProp 𝕄 := iprop(∃ W, owes (c : Thread nD τ) (0 : CellTallies nD τ sig Unit) W)

/-- The buffers at the end: the mean taken. -/
abbrev Vf (c : Dev nD) : Valuation τ sig (Elt F) := StableHlo.after hostOps1 (Ve m ρ c)

/-- A stretch of host operations over the unscoped buffers. -/
def hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hf W R

def segA := hostSeg (F := F) hostOps0 hostOps0_sub
  (by intro _ h; (repeat (cases h with | head => rfl | tail _ h => ?_)); exact nomatch h) (V₀ m ρ)
def segB := hostSeg (F := F) hostOps0_1 hostOps0_1_sub
  (by intro _ h; (repeat (cases h with | head => rfl | tail _ h => ?_)); exact nomatch h) (Va m ρ)
def segC := hostSeg (F := F) hostOps0_2 hostOps0_2_sub
  (by intro _ h; (repeat (cases h with | head => rfl | tail _ h => ?_)); exact nomatch h) (Vb m ρ)
def segD := hostSeg (F := F) hostOps0_3 hostOps0_3_sub
  (by intro _ h; (repeat (cases h with | head => rfl | tail _ h => ?_)); exact nomatch h) (Vc m ρ)
def segE := hostSeg (F := F) hostOps1 hostOps1_sub
  (by intro _ h; (repeat (cases h with | head => rfl | tail _ h => ?_)); exact nomatch h) (Ve m ρ)

set_option backward.isDefEq.respectTransparency.types false in
/-- THE REGION: entered from the unscoped buffers as the fourth stretch left them, left with the result's array as
    the write-backs left it and every other buffer untouched. -/
def reg : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (Vd m ρ c) ∗ R c)
  post c := iprop(StableHlo.held (c : Thread nD τ) (Pipeline.ucRefs τ sig) (Ve m ρ c) ∗ R c)
  X c := iprop(emp)
  Y c := iprop(emp)
  Z c := Pipeline.unscopedRest (Ix := Unit) (Name := ℕ) (U := UR sig nD τ) (Lvl := ℕ) spec0 c (V m ρ c)
  hentry c := by
    iintro ⟨⟨Hub, HO⟩, -, -⟩
    ihave H := (entry_split m ρ c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    imodintro
    isplitr [HO]
    · iapply (exit_join m ρ c)
      isplitl [Ha]; · iexact Ha
      iexact HZ
    · unfold Pipeline.Dat.owesAt Pipeline.owesWithin
      icases HO with ⟨%W, -, HO⟩; iexists W; iexact HO

/-- @main as the list of the six. -/
abbrev segs : List (Pipeline.Seg (pcfgs (F := F)) adm (dats m ρ) () defs₀ 𝒱₀ L lv) :=
  [.host (segA m ρ), .host (segB m ρ), .host (segC m ρ), .host (segD m ρ), .region (reg m ρ), .host (segE m ρ)]

/-- The run's post: every unscoped buffer at the fold of @main's operations, the region's result in between. -/
def QC : PUnit × MemSt nD τ sig (Elt F) → Prop := fun r =>
  ∀ c : Dev nD, ∀ b ∈ Pipeline.ucRefs τ sig, r.2.mem ((c : Thread nD τ).1, b) = Vf m ρ c b

set_option backward.isDefEq.respectTransparency.types false in
/-- At the compiled mesh, for any float values, from any memory with zero counters: every weakly fair execution of
    @main on the TensorCores terminates, and every final state has each unscoped buffer at `Vf`. -/
theorem run_main : θ_run defs (onTc (τ := τ) (main (F := F))) (s₀ m ρ) (QC m ρ) :=
  Pipeline.θ_run_regions_kit (pcfgs (F := F)) adm (dats m ρ) () cellOf_inj emb₁ defs₀ 𝒱₀ L lv m ρ main (segs m ρ)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vf m ρ c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vf m ρ c b)
    (hfin := fun c s' => by
      unfold StableHlo.held
      iintro ⟨H, HSI⟩
      ihave Hr := (pointsTo_read_all (Pipeline.ucRefs τ sig) (fun b => ((c : Thread nD τ).1, b)) (Vf m ρ c) s') $$ [H HSI]
      · isplitl [H] <;> iassumption
      icases Hr with ⟨%h, HSI⟩
      imodintro
      isplitr; · ipureintro; exact h
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.KIVal.lean ====
/-
  The idealized kernel's run, part four: what the buffers hold at the end.

  No host operation writes an argument, so both end as launched (the frame).  The result is the mean of the region's
  result array, and that array, row by row, is the body's value on the tile that holds the row: every grid point
  writes back its 128 rows and the 32 points cover the 4096.  The two matrices the region reads are the arguments
  divided by their clamped row norms.
-/
import proofs.«124254_j31353261261533_1_alg».proof.Proof.KIRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The arguments end as launched -/

theorem mem_uc (b : Ref sig .tc) (h : ¬ (Proc.devRef (τ := τ) .tc b).isScoped = true) : Proc.devRef (τ := τ) .tc b ∈ Pipeline.ucRefs τ sig :=
  Finset.mem_filter.mpr ⟨StableHlo.devRef_mem_tcRefs b, h⟩

/-- No host operation writes the first argument, -/
theorem Vf_arg0 (c : Dev nD) : Vf m ρ c (Proc.devRef .tc main_arg0) = m ((c : Thread nD τ).loc main_arg0) := by
  show StableHlo.after hostOps1 (Ve m ρ c) (Proc.devRef .tc main_arg0) = _
  after_results
  rw [Ve_of_ne m ρ c main_arg0 (by decide)]
  show StableHlo.after hostOps0_3 (Vc m ρ c) (Proc.devRef .tc main_arg0) = _
  after_results
/-- nor the second. -/
theorem Vf_arg1 (c : Dev nD) : Vf m ρ c (Proc.devRef .tc main_arg1) = m ((c : Thread nD τ).loc main_arg1) := by
  show StableHlo.after hostOps1 (Ve m ρ c) (Proc.devRef .tc main_arg1) = _
  after_results
  rw [Ve_of_ne m ρ c main_arg1 (by decide)]
  show StableHlo.after hostOps0_3 (Vc m ρ c) (Proc.devRef .tc main_arg1) = _
  after_results

/-- THE FRAME: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (Vf_arg0 m ρ c),
      (h c _ (mem_uc main_arg1 (by decide))).trans (Vf_arg1 m ρ c)⟩) (run_main m ρ)

/-! ## The result is the mean of the region's result -/

/-- The mean of 4096 numbers held as a column. -/
def meanOf (k : (⟨S4096x1, .f32⟩ : BufTy).Contents (Elt F)) : (⟨S_, .f32⟩ : BufTy).Contents (Elt F) :=
  Host.divf (Host.reduceAdd k (constant S_ .f32 0x00000000#32) reducesTo_S4096x1_S_d0_1 h_S_) (constant S_ .f32 0x45800000#32)

theorem Vf_out (c : Dev nD) : Vf m ρ c (Proc.devRef .tc main_v14) = meanOf (outArr m ρ c) := by
  show StableHlo.after hostOps1 (Ve m ρ c) (Proc.devRef .tc main_v14) = _
  after_results
  rw [Ve_out]
  rfl

/-! ## The matrices the region reads -/

/-- A matrix with each row divided by its norm, the norm clamped from below. -/
def normalize (x : (⟨S4096x512, .f32⟩ : BufTy).Contents (Elt F)) : (⟨S4096x512, .bf16⟩ : BufTy).Contents (Elt F) :=
  truncf .bf16 (Host.divf x (broadcastInDim S4096x512 ![0, 1] bcast_S4096x1_S4096x512_0_1
    (maximumf (Host.sqrt (broadcastInDim S4096x1 ![0] bcast_S4096_S4096x1_0
        (Host.reduceAdd (mulf x x) (constant S_ .f32 0x00000000#32) reducesTo_S4096x512_S4096_d1 h_S_)))
      (broadcastInDim S4096x1 ![] bcast_S_S4096x1 (constant S_ .f32 0x322BCC77#32))))) bitsLt_bf16_f32

theorem V_v5 (c : Dev nD) : V m ρ c main_v5 = normalize (m ((c : Thread nD τ).loc main_arg0)) := by
  show StableHlo.after hostOps0_3 (Vc m ρ c) (Proc.devRef .tc main_v5) = _
  after_results
  rfl

theorem V_v11 (c : Dev nD) : V m ρ c main_v11 = normalize (m ((c : Thread nD τ).loc main_arg1)) := by
  show StableHlo.after hostOps0_3 (Vc m ρ c) (Proc.devRef .tc main_v11) = _
  after_results
  rfl

/-! ## The region's result, row by row -/

/-- The grid point whose block holds row `i 0`, -/
def ptOf (i : S4096x1.Idx) : Fin cfg0.N :=
  ⟨(i 0).val / 128, by have h : (i 0).val < 4096 := (i 0).isLt; show (i 0).val / 128 < grid0.N; rw [N_0]; omega⟩
/-- and the row's place in that block. -/
def locOf (i : S4096x1.Idx) : S128x1.Idx :=
  ix2 (⟨(i 0).val % 128, Nat.mod_lt _ (by norm_num)⟩ : Fin 128) (⟨0, by norm_num⟩ : Fin 1)

/-- The region's result as one function of the two matrices it reads: at row `r`, the body's value on the blocks of
    the grid point whose tile holds `r`, at `r`'s place in the tile. -/
def G4 (X Y : Vec F S4096x512 .bf16) : S4096x1.Idx → Elt F .f32 := fun i =>
  k0_pay1 (((cfg0.win 0).blk (ptOf i)).view.read (Elt F) X) (((cfg0.win 2).blk (ptOf i)).view.read (Elt F) Y)
    (((cfg0.win 1).blk (ptOf i)).view.read (Elt F) X) (((cfg0.win 3).blk (ptOf i)).view.read (Elt F) Y) (locOf i)

theorem hz : (![0, 0] : Fin 2 → Nat) = fun _ => 0 := funext fun a => by fin_cases a <;> rfl

/-- The result window's block index at point `t` is `(t, 0)`. -/
theorem idx4 : ∀ t : Fin cfg0.N, win0_4.index t (0 : Fin 2) = t.val ∧ win0_4.index t (1 : Fin 2) = 0 :=
  (by decide +kernel : ∀ t : Fin grid0.N, _)

/-- WHAT POINT `t` WRITES BACK is block `t` of `G4` of the two matrices as the region finds them. -/
theorem flushed_eq (c : Dev nD) (t : Fin cfg0.N) :
    (dats m ρ 0 c).flushed 4 t = ((cfg0.win 4).blk t).view.read (Elt F) (G4 (V m ρ c main_v5) (V m ρ c main_v11)) := by
  show (cfg0.win 4).cut (grid0.coords t) ((dats m ρ 0 c).after 4 t) = _
  rw [after_4]
  unfold tile
  rw [View.canon_unit_zero hz]
  simp only [View.ld_unit_zero (S := S128x512) hz, View.ld_unit_zero (S := S4096x512) hz]
  obtain ⟨e0, e1⟩ := idx4 t
  funext j
  show k0_pay1 (iblk m ρ c 0 t) (iblk m ρ c 2 t) (iblk m ρ c 1 t) (iblk m ρ c 3 t) j
    = G4 (V m ρ c main_v5) (V m ρ c main_v11) (((cfg0.win 4).blk t).view.emb j)
  have h0 : ((((cfg0.win 4).blk t).view.emb j) 0).val = win0_4.index t (0 : Fin 2) * 128 + 1 * (j 0).val := rfl
  have hj0 : (j 0).val < 128 := (j 0).isLt
  have hj1 : (j 1).val < 1 := (j 1).isLt
  have hp : ptOf (((cfg0.win 4).blk t).view.emb j) = t := Fin.ext (by
    show ((((cfg0.win 4).blk t).view.emb j) 0).val / 128 = t.val
    rw [h0, e0]; omega)
  have hl : locOf (((cfg0.win 4).blk t).view.emb j) = j := by
    funext a; apply Fin.ext
    match a with
    | ⟨0, _⟩ => show ((((cfg0.win 4).blk t).view.emb j) 0).val % 128 = (j 0).val; rw [h0, e0]; omega
    | ⟨1, _⟩ => show 0 = (j 1).val; omega
  unfold G4
  rw [hp, hl]
  rfl

/-- An index of the result array is in point `t`'s block iff each coordinate is in the block's range on its axis. -/
theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v12).slice (win0_4.rect t)).set ↔ _
  rw [View.set_slice_whole, Rect.mem_set_unit]
  exact Iff.rfl

/-- Every row is in the block of the point `row / 128`. -/
theorem cover4 (i : S4096x1.Idx) : ∃ t : Fin cfg0.N, (cfg0.win 4).flush t = true ∧ i ∈ ((cfg0.win 4).blk t).view.set := by
  refine ⟨ptOf i, flush0_4 _, ?_⟩
  rw [mem_blk4]
  obtain ⟨e0, e1⟩ := idx4 (ptOf i)
  have hi1 : (i 1).val < 1 := (i 1).isLt
  have hp : (ptOf i).val = (i 0).val / 128 := rfl
  intro a
  match a with
  | ⟨0, _⟩ => show win0_4.index (ptOf i) (0 : Fin 2) * 128 ≤ (i 0).val ∧ (i 0).val < win0_4.index (ptOf i) (0 : Fin 2) * 128 + 128; rw [e0, hp]; omega
  | ⟨1, _⟩ => show win0_4.index (ptOf i) (1 : Fin 2) * 1 ≤ (i 1).val ∧ (i 1).val < win0_4.index (ptOf i) (1 : Fin 2) * 1 + 1; rw [e1]; omega

/-- THE RESULT ARRAY after the run: `G4` of the two normalized arguments. -/
theorem outArr_eq (c : Dev nD) :
    outArr m ρ c = G4 (normalize (m ((c : Thread nD τ).loc main_arg0))) (normalize (m ((c : Thread nD τ).loc main_arg1))) := by
  unfold outArr
  rw [(dats m ρ 0 c).arrAt_eq_of_cover 4 (G4 (V m ρ c main_v5) (V m ρ c main_v11)) (fun t _ => flushed_eq m ρ c t) cover4, V_v5, V_v11]

/-! ## The run, read -/

/-- The run re-posted: the result at the mean of `G4` of the normalized arguments, the arguments unchanged. -/
theorem run : θ_run defs (onTc (τ := τ) (main (F := F))) ⟨m, fun _ => 0, ρ⟩ fun r => ∀ c : Dev nD,
      r.2.mem ((c.tc : Thread nD τ).loc main_v14)
        = meanOf (G4 (normalize (m ((c : Thread nD τ).loc main_arg0))) (normalize (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c _ (mem_uc main_v14 (by decide))).trans ((Vf_out m ρ c).trans (by rw [outArr_eq])),
      (h c _ (mem_uc main_arg0 (by decide))).trans (Vf_arg0 m ρ c),
      (h c _ (mem_uc main_arg1 (by decide))).trans (Vf_arg1 m ρ c)⟩) (run_main m ρ)

end Cert.KernelIdeal.Hand

end
-- ==== Proof.Spec.lean ====
/-
  The specification: the mean row-wise KL divergence between the softmaxes of two cosine-distance matrices, over the
  extended reals.

  For a matrix `X` with rows `X r`, the distance of rows `r` and `q` is `1 - ∑ k, X r k * X q k`.  A row `d` of
  distances is turned into log-probabilities the numerically stable way: the row's maximum is subtracted, then the
  logarithm of the sum of the exponentials (`lsm`).  The divergence of a target row `dt` from a predicted row `dp` is
  `∑ q, exp (lsm dt q) * (lsm dt q - lsm dp q)`, and the loss is the mean of the divergences over the rows.  Every
  operation is the extended reals' own; no law beyond the re-indexing of a finite sum is needed to meet the two
  programs, so nothing here asks an entry to be finite.
-/
import Idealize.ShloMosaic.PureOps.Ideal
import Idealize.ShloMosaic.PureOps.Ideal.Laws

noncomputable section

open scoped BigOperators

namespace Cert.Spec

open Idealize.ShloMosaic

/-- The float words the two programs share, as extended reals: `-∞`, `1`, `4096`. -/
abbrev ninf : EReal := Ideal.ofBits .f32 0xFF800000#32
abbrev one : EReal := Ideal.ofBits .f32 0x3F800000#32
abbrev c4096 : EReal := Ideal.ofBits .f32 0x45800000#32

variable {n K : ℕ}

/-- A row's maximum, folded from `-∞`. -/
def rowMax (d : Fin n → EReal) : EReal := (Finset.univ : Finset (Fin n)).fold max ninf d

/-- The row less its maximum. -/
def shift (d : Fin n → EReal) (q : Fin n) : EReal := d q - rowMax d

/-- The logarithm of the sum of the exponentials of the shifted row. -/
def lse (d : Fin n → EReal) : EReal := Ideal.log (∑ q, Ideal.exp (shift d q))

/-- The row's log-softmax. -/
def lsm (d : Fin n → EReal) (q : Fin n) : EReal := shift d q - lse d

/-- The divergence of the target row `dt` from the predicted row `dp`. -/
def kl (dt dp : Fin n → EReal) : EReal := ∑ q, Ideal.exp (lsm dt q) * (lsm dt q - lsm dp q)

/-- The distance of rows `r` and `q` of `X`. -/
def dist (X : Fin n → Fin K → EReal) (r q : Fin n) : EReal := one - ∑ k, X r k * X q k

/-- The loss: the mean over the rows of the divergence between the two distance rows. -/
def loss (X Y : Fin n → Fin K → EReal) : EReal := Ideal.div (∑ r, kl (dist X r) (dist Y r)) c4096

/-- `max` against `-∞` is the identity. -/
theorem max_ninf (y : EReal) : max ninf y = y := by
  show max (Ideal.ofBits .f32 0xFF800000#32) y = y
  simp [Ideal.ofBits, Ideal.ieee]

end Cert.Spec

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KIMath.lean ====
/-
  The body's value at a row, over the extended reals.

  The body's result is organized as its mathematics is: the slab of distances between the tile's 128 rows and all 4096
  rows (`kDist`: one minus the matrix product contracted over the 512 features), the slab's row-wise log-softmax
  (`kLsm`: the row maximum subtracted, then the logarithm of the row's sum of exponentials), and the row-wise
  divergence of the two slabs (`kKl`).  Each is read at an index: a lane reduction is a finite sum or a fold of `max`
  over the row's 4096 coordinates, a reduction's kept dimension is a cast to a column and a broadcast along the row,
  the matrix product into the zero accumulator is the sum over the contracted coordinate.  Together: the body's value
  at row `p` is `Spec.kl` of the two distance rows of `p`.
-/
import proofs.«124254_j31353261261533_1_alg».proof.Proof.Gen.KernelIdeal.Skeleton
import proofs.«124254_j31353261261533_1_alg».proof.Proof.Spec
import proofs.«124254_j31353261261533_1_alg».proof.Proof.LibKeepdims
import proofs.«124254_j31353261261533_1_alg».proof.Proof.LibDotSingle
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Math

open Cert.KernelIdeal Cert.KernelIdeal.Gen
open Idealize.ShloMosaic Idealize.ShloMosaic.ValueIdx

section AnyInstance

variable {F : FTy → Type} [FloatOps F]

/-- The distances between the tile's rows and all rows: one minus the product contracted over the features. -/
def kDist (xt : FVec F S128x512 .bf16) (xf : FVec F S4096x512 .bf16) : FVec F S128x4096 .f32 :=
  subf (broadcast S128x4096 (Scalar.ofBits .f32 0x3F800000#32))
    (matmul dot_S128x512_S4096x512_S128x4096_1_1_0_0_n_n none xt xf (constant S128x4096 .f32 0x00000000#32))

/-- A slab less its row maxima. -/
def kShift (d : FVec F S128x4096 .f32) : FVec F S128x4096 .f32 :=
  subf d (broadcastTo S128x4096 (shapeCast S128x1 (multiReduction .maximumf [1] S128 d 0xFF800000#32 reduces_S128x4096_S128 (.inl rfl) rfl) shapeCasts_S128_S128x1) broadcasts_S128x1_S128x4096)

/-- The slab's row-wise log-softmax. -/
def kLsm (d : FVec F S128x4096 .f32) : FVec F S128x4096 .f32 :=
  subf (kShift d) (broadcastTo S128x4096 (log (shapeCast S128x1 (multiReduction .add [1] S128 (exp (kShift d)) 0x00000000#32 reduces_S128x4096_S128 (.inl rfl) rfl) shapeCasts_S128_S128x1)) broadcasts_S128x1_S128x4096)

/-- The row-wise divergence of two slabs of log-probabilities, as a column. -/
def kKl (lt lp : FVec F S128x4096 .f32) : FVec F S128x1 .f32 :=
  shapeCast S128x1 (multiReduction .add [1] S128 (mulf (exp lt) (subf lt lp)) 0x00000000#32 reduces_S128x4096_S128 (.inl rfl) rfl) shapeCasts_S128_S128x1

/-- The body's payload is the divergence of the log-softmaxes of the two distance slabs. -/
theorem pay_eq (x0 x2 : Vec F S128x512 .bf16) (x1 x3 : Vec F S4096x512 .bf16) :
    k0_pay1 x0 x2 x1 x3
      = kKl (kLsm (kDist (shapeCast S128x512 x0 shapeCasts_S128x512_S128x512) (shapeCast S4096x512 x1 shapeCasts_S4096x512_S4096x512)))
          (kLsm (kDist (shapeCast S128x512 x2 shapeCasts_S128x512_S128x512) (shapeCast S4096x512 x3 shapeCasts_S4096x512_S4096x512))) := rfl

end AnyInstance

/-! ## Read at an index, over the extended reals -/

/-- A row's index with the lane coordinate put back is `(p, k)`. -/
theorem lift_row (p : Fin 128) (k : Fin 4096) : reduces_S128x4096_S128.lift (ix1 p) k = ix2 p k := by
  funext c; apply Fin.ext
  fin_cases c <;> rfl

/-- The distance slab at `(p, q)`. -/
theorem kDist_apply (xt : FVec Ideal S128x512 .bf16) (xf : FVec Ideal S4096x512 .bf16) (p : Fin 128) (q : Fin 4096) :
    kDist xt xf (ix2 p q) = Spec.one - ∑ k : Fin 512, xt (ix2 p k) * xf (ix2 q k) := by
  unfold kDist
  rw [subf_apply]
  rw [Cert.LibDotSingle.matmul_zero_apply dot_S128x512_S4096x512_S128x4096_1_1_0_0_n_n 512 rfl rfl none xt xf (ix2 p q)
    (fun k => ix2 p k) (fun k => ix2 q k)
    (fun k => funext fun a => Fin.ext (by
      have hk := contrEquiv1_symm_val dot_S128x512_S4096x512_S128x4096_1_1_0_0_n_n 512 rfl rfl k
      match a with
      | ⟨0, _⟩ =>
        show (dot_S128x512_S4096x512_S128x4096_1_1_0_0_n_n.lhsIdx (ix2 p q) _ 0).val = p.val
        unfold DotDims.lhsIdx
        rw [dif_neg (show ¬(0 : Fin S128x512.rank) ∈ dot_S128x512_S4096x512_S128x4096_1_1_0_0_n_n.lhsBatch by decide),
          dif_pos (show (0 : Fin S128x512.rank) ∈ dot_S128x512_S4096x512_S128x4096_1_1_0_0_n_n.lhsNonContracting by decide)]
        rfl
      | ⟨1, _⟩ => exact (dot_S128x512_S4096x512_S128x4096_1_1_0_0_n_n.lhsIdx_val_of_single rfl _ _).trans hk))
    (fun k => funext fun a => Fin.ext (by
      have hk := contrEquiv1_symm_val dot_S128x512_S4096x512_S128x4096_1_1_0_0_n_n 512 rfl rfl k
      match a with
      | ⟨0, _⟩ =>
        show (dot_S128x512_S4096x512_S128x4096_1_1_0_0_n_n.rhsIdx (ix2 p q) _ 0).val = q.val
        unfold DotDims.rhsIdx
        rw [dif_neg (show ¬(0 : Fin S4096x512.rank) ∈ dot_S128x512_S4096x512_S128x4096_1_1_0_0_n_n.rhsBatch by decide),
          dif_pos (show (0 : Fin S4096x512.rank) ∈ dot_S128x512_S4096x512_S128x4096_1_1_0_0_n_n.rhsNonContracting by decide)]
        rfl
      | ⟨1, _⟩ => exact (dot_S128x512_S4096x512_S128x4096_1_1_0_0_n_n.rhsIdx_val_of_single rfl _ _).trans hk))]
  rfl

/-- A lane sum at row `p` is the sum over the row's 4096 coordinates. -/
theorem rowSum_apply (src : FVec Ideal S128x4096 .f32) (hφ : FKind.Formats .f32) (hacc : (0x00000000#32 : BitVec 32) = 0x00000000#32) (p : Fin 128) :
    multiReduction .add [1] S128 src 0x00000000#32 reduces_S128x4096_S128 hφ hacc (ix1 p) = ∑ k : Fin 4096, src (ix2 p k) :=
  (Ideal.multiReduction_add_single src 0x00000000#32 reduces_S128x4096_S128 hφ hacc (ix1 p)).trans
    (Finset.sum_congr rfl fun k _ => congrArg src (lift_row p k))

/-- A lane maximum from `-∞` at row `p` is the row's maximum. -/
theorem rowMaxK_apply (src : FVec Ideal S128x4096 .f32) (hφ : FKind.Formats .f32) (hacc : (0xFF800000#32 : BitVec 32) = 0xFF800000#32) (p : Fin 128) :
    multiReduction .maximumf [1] S128 src 0xFF800000#32 reduces_S128x4096_S128 hφ hacc (ix1 p) = Spec.rowMax (fun k : Fin 4096 => src (ix2 p k)) :=
  (Ideal.multiReduction_maximumf_single src 0xFF800000#32 reduces_S128x4096_S128 hφ hacc (ix1 p)).trans (by
    unfold Spec.rowMax
    exact congrArg (fun f => Finset.fold max Spec.ninf f (Finset.univ : Finset (Fin 4096))) (funext fun k => congrArg src (lift_row p k)))

/-- A row's maximum kept as a column and broadcast along the row. -/
theorem rowMax_apply (d : FVec Ideal S128x4096 .f32) (p : Fin 128) (q : Fin 4096) :
    broadcastTo S128x4096 (shapeCast S128x1 (multiReduction .maximumf [1] S128 d 0xFF800000#32 reduces_S128x4096_S128 (.inl rfl) rfl) shapeCasts_S128_S128x1) broadcasts_S128x1_S128x4096 (ix2 p q)
      = Spec.rowMax (fun k : Fin 4096 => d (ix2 p k)) :=
  (Cert.LibKeepdims.column_apply _ shapeCasts_S128_S128x1 broadcasts_S128x1_S128x4096 p q).trans (rowMaxK_apply d _ _ p)

/-- The shifted slab at `(p, q)`. -/
theorem kShift_apply (d : FVec Ideal S128x4096 .f32) (p : Fin 128) (q : Fin 4096) :
    kShift d (ix2 p q) = Spec.shift (fun k : Fin 4096 => d (ix2 p k)) q := by
  unfold kShift Spec.shift
  exact congrArg (d (ix2 p q) - ·) (rowMax_apply d p q)

/-- The log-softmax slab at `(p, q)`. -/
theorem kLsm_apply (d : FVec Ideal S128x4096 .f32) (p : Fin 128) (q : Fin 4096) :
    kLsm d (ix2 p q) = Spec.lsm (fun k : Fin 4096 => d (ix2 p k)) q := by
  unfold kLsm Spec.lsm Spec.lse
  refine congrArg₂ (· - ·) (kShift_apply d p q) ?_
  refine (Cert.LibKeepdims.broadcastTo_a1_ab_apply _ broadcasts_S128x1_S128x4096 p q).trans ?_
  refine congrArg Ideal.log ((Cert.LibKeepdims.shapeCast_a_a1_apply _ shapeCasts_S128_S128x1 p 0).trans ?_)
  refine (rowSum_apply _ _ _ p).trans (Finset.sum_congr rfl fun k _ => ?_)
  exact congrArg Ideal.exp (kShift_apply d p k)

/-- The divergence column at row `p`. -/
theorem kKl_apply (lt lp : FVec Ideal S128x4096 .f32) (p : Fin 128) (u : Fin 1) :
    kKl lt lp (ix2 p u) = ∑ q : Fin 4096, Ideal.exp (lt (ix2 p q)) * (lt (ix2 p q) - lp (ix2 p q)) := by
  unfold kKl
  refine (Cert.LibKeepdims.shapeCast_a_a1_apply _ shapeCasts_S128_S128x1 p u).trans ?_
  exact rowSum_apply _ _ _ p

/-- THE BODY'S VALUE AT A ROW: the divergence between the log-softmaxes of the row's two distance rows. -/
theorem pay_apply (x0 x2 : Vec Ideal S128x512 .bf16) (x1 x3 : Vec Ideal S4096x512 .bf16) (p : Fin 128) (u : Fin 1) :
    k0_pay1 (F := Ideal) x0 x2 x1 x3 (ix2 p u)
      = Spec.kl (fun q : Fin 4096 => Spec.one - ∑ k : Fin 512, x0 (ix2 p k) * x1 (ix2 q k))
          (fun q : Fin 4096 => Spec.one - ∑ k : Fin 512, x2 (ix2 p k) * x3 (ix2 q k)) := by
  rw [pay_eq, kKl_apply]
  unfold Spec.kl
  simp only [kLsm_apply, kDist_apply, shapeCast_self]

end Cert.KernelIdeal.Math

end
-- ==== Proof.KIFinal.lean ====
/-
  The idealized kernel's result, over the extended reals: the loss of the two matrices the region reads.

  At row `r` the region's result is the body's value on the tile that holds `r`; the tile's blocks are rows
  `128 * (r / 128) …` of each matrix and the two whole matrices, so the body's distance rows there are row `r`'s
  distance rows, and the body's value is their divergence (`Spec.kl`).  The mean over the 4096 rows is `Spec.loss`.
-/
import proofs.«124254_j31353261261533_1_alg».proof.Proof.KIVal
import proofs.«124254_j31353261261533_1_alg».proof.Proof.KIMath

set_option maxRecDepth 16384

noncomputable section

open scoped BigOperators

namespace Cert.KernelIdeal.Hand

open Cert.KernelIdeal Cert.KernelIdeal.Gen
open Idealize.ShloMosaic Idealize.ShloMosaic.ValueIdx

/-- The input windows' block indices at point `t`: the row tiles move with `t`, the whole matrices stay. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Row `p` of point `t`'s tile of the first matrix is row `128 t + p`. -/
theorem read_tile0 (X : Vec Ideal S4096x512 .bf16) (t : Fin cfg0.N) (p : Fin 128) (k : Fin 512) (r : Fin 4096) (hr : t.val * 128 + p.val = r.val) :
    ((cfg0.win 0).blk t).view.read (Elt Ideal) X (ix2 p k) = X (ix2 r k) := by
  show X (((cfg0.win 0).blk t).view.emb (ix2 p k)) = X (ix2 r k)
  refine congrArg X (funext fun a => Fin.ext ?_)
  obtain ⟨e0, e1, -⟩ := idx_in t
  match a with
  | ⟨0, _⟩ => show win0_0.index t (0 : Fin 2) * 128 + 1 * p.val = r.val; omega
  | ⟨1, _⟩ => show win0_0.index t (1 : Fin 2) * 512 + 1 * k.val = k.val; omega

/-- The same of the second matrix. -/
theorem read_tile2 (Y : Vec Ideal S4096x512 .bf16) (t : Fin cfg0.N) (p : Fin 128) (k : Fin 512) (r : Fin 4096) (hr : t.val * 128 + p.val = r.val) :
    ((cfg0.win 2).blk t).view.read (Elt Ideal) Y (ix2 p k) = Y (ix2 r k) := by
  show Y (((cfg0.win 2).blk t).view.emb (ix2 p k)) = Y (ix2 r k)
  refine congrArg Y (funext fun a => Fin.ext ?_)
  obtain ⟨-, -, -, -, e0, e1, -⟩ := idx_in t
  match a with
  | ⟨0, _⟩ => show win0_2.index t (0 : Fin 2) * 128 + 1 * p.val = r.val; omega
  | ⟨1, _⟩ => show win0_2.index t (1 : Fin 2) * 512 + 1 * k.val = k.val; omega

/-- The whole-matrix windows read the matrix. -/
theorem read_full1 (X : Vec Ideal S4096x512 .bf16) (t : Fin cfg0.N) (q : Fin 4096) (k : Fin 512) :
    ((cfg0.win 1).blk t).view.read (Elt Ideal) X (ix2 q k) = X (ix2 q k) := by
  show X (((cfg0.win 1).blk t).view.emb (ix2 q k)) = X (ix2 q k)
  refine congrArg X (funext fun a => Fin.ext ?_)
  obtain ⟨-, -, e0, e1, -⟩ := idx_in t
  match a with
  | ⟨0, _⟩ => show win0_1.index t (0 : Fin 2) * 4096 + 1 * q.val = q.val; omega
  | ⟨1, _⟩ => show win0_1.index t (1 : Fin 2) * 512 + 1 * k.val = k.val; omega

theorem read_full3 (Y : Vec Ideal S4096x512 .bf16) (t : Fin cfg0.N) (q : Fin 4096) (k : Fin 512) :
    ((cfg0.win 3).blk t).view.read (Elt Ideal) Y (ix2 q k) = Y (ix2 q k) := by
  show Y (((cfg0.win 3).blk t).view.emb (ix2 q k)) = Y (ix2 q k)
  refine congrArg Y (funext fun a => Fin.ext ?_)
  obtain ⟨-, -, -, -, -, -, e0, e1⟩ := idx_in t
  match a with
  | ⟨0, _⟩ => show win0_3.index t (0 : Fin 2) * 4096 + 1 * q.val = q.val; omega
  | ⟨1, _⟩ => show win0_3.index t (1 : Fin 2) * 512 + 1 * k.val = k.val; omega

/-- THE REGION'S RESULT AT ROW `r`: the divergence between row `r`'s two distance rows. -/
theorem G4_apply (X Y : Vec Ideal S4096x512 .bf16) (r : Fin 4096) (u : Fin 1) :
    G4 (F := Ideal) X Y (ix2 r u)
      = Spec.kl (Spec.dist (fun a k => X (ix2 a k)) r) (Spec.dist (fun a k => Y (ix2 a k)) r) := by
  have ht : (ptOf (ix2 r u)).val * 128 + r.val % 128 = r.val := by
    show r.val / 128 * 128 + r.val % 128 = r.val
    omega
  unfold G4
  rw [show locOf (ix2 r u) = ix2 (⟨r.val % 128, Nat.mod_lt _ (by norm_num)⟩ : Fin 128) (⟨0, by norm_num⟩ : Fin 1) from rfl]
  rw [Cert.KernelIdeal.Math.pay_apply]
  refine congrArg₂ Spec.kl (funext fun q => ?_) (funext fun q => ?_)
  · unfold Spec.dist
    refine congrArg (Spec.one - ·) (Finset.sum_congr rfl fun k _ => ?_)
    rw [read_tile0 X _ _ k r ht, read_full1]
  · unfold Spec.dist
    refine congrArg (Spec.one - ·) (Finset.sum_congr rfl fun k _ => ?_)
    rw [read_tile2 Y _ _ k r ht, read_full3]

/-- THE KERNEL'S RESULT: the loss of the two matrices the region reads. -/
theorem kernel_value (X Y : Vec Ideal S4096x512 .bf16) :
    meanOf (F := Ideal) (G4 X Y) ix0 = Spec.loss (fun a k => X (ix2 a k)) (fun a k => Y (ix2 a k)) := by
  have h1 : Host.reduceAdd (F := Ideal) (G4 X Y) (constant S_ .f32 0x00000000#32) reducesTo_S4096x1_S_d0_1 h_S_ ix0
      = (constant (F := Ideal) S_ .f32 0x00000000#32) (Shape.Idx.first h_S_) + ∑ j : S4096x1.Idx, G4 X Y j := by
    generalize G4 (F := Ideal) X Y = y0
    simp only [Host.reduceAdd, Ideal.hostReduceAdd_def]
    exact Ideal.hostReduceAdd_total reducesTo_S4096x1_S_d0_1 (fun b => b.elim0) y0 _ ix0
  unfold meanOf Spec.loss
  show Ideal.div (Host.reduceAdd (F := Ideal) (G4 X Y) (constant S_ .f32 0x00000000#32) reducesTo_S4096x1_S_d0_1 h_S_ ix0) Spec.c4096 = _
  rw [h1, constant_apply, Ideal.ofBits_zero_f32, zero_add, sum_idx2]
  refine congrArg (Ideal.div · Spec.c4096) (Finset.sum_congr rfl fun a _ => ?_)
  rw [Fin.sum_univ_one]
  exact G4_apply X Y a 0

end Cert.KernelIdeal.Hand

end
-- ==== Proof.RefMath.lean ====
/-
  The reference's result, over the extended reals: the loss of its two normalized matrices.

  Read one operation at a time: a distance matrix is one minus the product of the normalized matrix with its
  transpose (entry `(r, q)`: rows `r` and `q`); `log_softmax` subtracts the row maximum — the host's reduce over
  the second axis, a fold of `max` from `-∞`, then a `max` against `-∞` that changes nothing —, then the logarithm of
  the row's sum of exponentials; the divergence is summed along each row, the rows' divergences are summed and
  divided by 4096.  Each sum starts from the zero word, which adds nothing.
-/
import proofs.«124254_j31353261261533_1_alg».proof.Proof.RefReadP
import proofs.«124254_j31353261261533_1_alg».proof.Proof.Spec
import Idealize.ShloMosaic.Lib.ValueIdx
import Idealize.ShloMosaic.PureOps.Ideal.Laws

set_option maxRecDepth 16384

noncomputable section

open scoped BigOperators

namespace Cert.ReferenceIdeal.Math

open Cert.ReferenceIdeal Cert.ReferenceIdeal.Gen Cert.ReferenceIdeal.ReadP
open Idealize.ShloMosaic Idealize.ShloMosaic.ValueIdx

/-- A row's index with the column put back is `(r, k)`. -/
theorem lift_row (r k : Fin 4096) (h : S4096x4096.Reduces [1] S4096) : h.lift (ix1 r) k = ix2 r k := by
  funext c; apply Fin.ext
  fin_cases c <;> rfl

/-- The first distance matrix at `(r, q)`: one minus the product of rows `r` and `q` of the normalized matrix. -/
theorem v8_at (x0 : (⟨S4096x512, .f32⟩ : BufTy).Contents (Elt Ideal)) (r q : Fin 4096) :
    val_main_v8 (F := Ideal) x0 (ix2 r q) = Spec.dist (fun a k => val_main_v4 (F := Ideal) x0 (ix2 a k)) r q := by
  rw [val_main_v8_apply, val_main_v7_apply, val_main_cst_0_apply, val_main_v6_apply]
  unfold Spec.dist
  refine congrArg (Spec.one - ·) (Finset.sum_congr rfl fun k _ => ?_)
  rw [val_main_v5_apply]
  exact congrArg₂ (· * ·)
    (congrArg (val_main_v4 (F := Ideal) x0) (funext fun a => by match a with | ⟨0, _⟩ => rfl | ⟨1, _⟩ => rfl))
    (congrArg (val_main_v4 (F := Ideal) x0) (funext fun a => by match a with | ⟨0, _⟩ => rfl | ⟨1, _⟩ => rfl))

/-- The second distance matrix at `(r, q)`: one minus the product of rows `r` and `q` of the normalized matrix. -/
theorem v17_at (x1 : (⟨S4096x512, .f32⟩ : BufTy).Contents (Elt Ideal)) (r q : Fin 4096) :
    val_main_v17 (F := Ideal) x1 (ix2 r q) = Spec.dist (fun a k => val_main_v13 (F := Ideal) x1 (ix2 a k)) r q := by
  rw [val_main_v17_apply, val_main_v16_apply, val_main_cst_2_apply, val_main_v15_apply]
  unfold Spec.dist
  refine congrArg (Spec.one - ·) (Finset.sum_congr rfl fun k _ => ?_)
  rw [val_main_v14_apply]
  exact congrArg₂ (· * ·)
    (congrArg (val_main_v13 (F := Ideal) x1) (funext fun a => by match a with | ⟨0, _⟩ => rfl | ⟨1, _⟩ => rfl))
    (congrArg (val_main_v13 (F := Ideal) x1) (funext fun a => by match a with | ⟨0, _⟩ => rfl | ⟨1, _⟩ => rfl))

/-- The row maxima of the v8 matrix: the host's reduce over the second axis, a fold of `max` from `-∞`. -/
theorem call2_v0_at (x0 : (⟨S4096x512, .f32⟩ : BufTy).Contents (Elt Ideal)) (r : Fin 4096) :
    val_main_call2_v0 (F := Ideal) x0 (ix1 r) = Spec.rowMax (fun k : Fin 4096 => val_main_v8 (F := Ideal) x0 (ix2 r k)) := by
  unfold val_main_call2_v0
  generalize val_main_v8 (F := Ideal) x0 = y
  refine (Host.reduce_eq_fold_single (FloatOps.maximumf (F := Ideal) (φ := .f32)) y _ reducesTo_S4096x4096_S4096_d1 (by decide) h_S_ (ix1 r)).trans ?_
  unfold Spec.rowMax
  exact congrArg (fun f => Finset.fold max Spec.ninf f (Finset.univ : Finset (Fin 4096))) (funext fun k => congrArg y (lift_row r k _))

/-- The v8 matrix less its row maxima, at `(r, q)`. -/
theorem call2_v5_at (x0 : (⟨S4096x512, .f32⟩ : BufTy).Contents (Elt Ideal)) (r q : Fin 4096) :
    val_main_call2_v5 (F := Ideal) x0 (ix2 r q) = Spec.shift (fun k : Fin 4096 => val_main_v8 (F := Ideal) x0 (ix2 r k)) q := by
  rw [val_main_call2_v5_apply, val_main_call2_v4_apply, val_main_call2_v3_apply, val_main_call2_v2_apply, val_main_call2_v1_apply,
    val_main_call2_cst_0_apply]
  have e : idx_main_call2_v3 (idx_main_call2_v4 (ix2 r q)) = ix1 r := funext fun a => by match a with | ⟨0, _⟩ => rfl
  rw [e, call2_v0_at]
  unfold Spec.shift
  exact congrArg (val_main_v8 (F := Ideal) x0 (ix2 r q) - ·) (Spec.max_ninf _)

/-- The log-softmax of the v8 matrix, at `(r, q)`. -/
theorem v18_at (x0 : (⟨S4096x512, .f32⟩ : BufTy).Contents (Elt Ideal)) (r q : Fin 4096) :
    val_main_v18 (F := Ideal) x0 (ix2 r q) = Spec.lsm (fun k : Fin 4096 => val_main_v8 (F := Ideal) x0 (ix2 r k)) q := by
  rw [val_main_v18_apply, call2_v5_at, val_main_call2_v10_apply, val_main_call2_v9_apply, val_main_call2_v8_apply, val_main_call2_v7_apply,
    val_main_call2_cst_1_apply]
  unfold Spec.lsm Spec.lse
  refine congrArg (fun s => Spec.shift (fun k : Fin 4096 => val_main_v8 (F := Ideal) x0 (ix2 r k)) q - Ideal.log s) ?_
  show Ideal.ofBits .f32 0x00000000#32 + _ = _
  rw [Ideal.ofBits_zero_f32, zero_add]
  refine Finset.sum_congr rfl fun k _ => ?_
  have e : idx_main_call2_v7 (idx_main_call2_v8 (idx_main_call2_v10 (ix2 r q))) k = ix2 r k :=
    funext fun a => by match a with | ⟨0, _⟩ => rfl | ⟨1, _⟩ => rfl
  rw [e, val_main_call2_v6_apply, call2_v5_at]
  rfl

/-- The row maxima of the v17 matrix: the host's reduce over the second axis, a fold of `max` from `-∞`. -/
theorem call3_v0_at (x1 : (⟨S4096x512, .f32⟩ : BufTy).Contents (Elt Ideal)) (r : Fin 4096) :
    val_main_call3_v0 (F := Ideal) x1 (ix1 r) = Spec.rowMax (fun k : Fin 4096 => val_main_v17 (F := Ideal) x1 (ix2 r k)) := by
  unfold val_main_call3_v0
  generalize val_main_v17 (F := Ideal) x1 = y
  refine (Host.reduce_eq_fold_single (FloatOps.maximumf (F := Ideal) (φ := .f32)) y _ reducesTo_S4096x4096_S4096_d1 (by decide) h_S_ (ix1 r)).trans ?_
  unfold Spec.rowMax
  exact congrArg (fun f => Finset.fold max Spec.ninf f (Finset.univ : Finset (Fin 4096))) (funext fun k => congrArg y (lift_row r k _))

/-- The v17 matrix less its row maxima, at `(r, q)`. -/
theorem call3_v5_at (x1 : (⟨S4096x512, .f32⟩ : BufTy).Contents (Elt Ideal)) (r q : Fin 4096) :
    val_main_call3_v5 (F := Ideal) x1 (ix2 r q) = Spec.shift (fun k : Fin 4096 => val_main_v17 (F := Ideal) x1 (ix2 r k)) q := by
  rw [val_main_call3_v5_apply, val_main_call3_v4_apply, val_main_call3_v3_apply, val_main_call3_v2_apply, val_main_call3_v1_apply,
    val_main_call3_cst_0_apply]
  have e : idx_main_call3_v3 (idx_main_call3_v4 (ix2 r q)) = ix1 r := funext fun a => by match a with | ⟨0, _⟩ => rfl
  rw [e, call3_v0_at]
  unfold Spec.shift
  exact congrArg (val_main_v17 (F := Ideal) x1 (ix2 r q) - ·) (Spec.max_ninf _)

/-- The log-softmax of the v17 matrix, at `(r, q)`. -/
theorem v19_at (x1 : (⟨S4096x512, .f32⟩ : BufTy).Contents (Elt Ideal)) (r q : Fin 4096) :
    val_main_v19 (F := Ideal) x1 (ix2 r q) = Spec.lsm (fun k : Fin 4096 => val_main_v17 (F := Ideal) x1 (ix2 r k)) q := by
  rw [val_main_v19_apply, call3_v5_at, val_main_call3_v10_apply, val_main_call3_v9_apply, val_main_call3_v8_apply, val_main_call3_v7_apply,
    val_main_call3_cst_1_apply]
  unfold Spec.lsm Spec.lse
  refine congrArg (fun s => Spec.shift (fun k : Fin 4096 => val_main_v17 (F := Ideal) x1 (ix2 r k)) q - Ideal.log s) ?_
  show Ideal.ofBits .f32 0x00000000#32 + _ = _
  rw [Ideal.ofBits_zero_f32, zero_add]
  refine Finset.sum_congr rfl fun k _ => ?_
  have e : idx_main_call3_v7 (idx_main_call3_v8 (idx_main_call3_v10 (ix2 r q))) k = ix2 r k :=
    funext fun a => by match a with | ⟨0, _⟩ => rfl | ⟨1, _⟩ => rfl
  rw [e, val_main_call3_v6_apply, call3_v5_at]
  rfl

/-- A sum over the indices of a vector is the sum over its coordinate. -/
theorem sum_idx1 {M : Type*} [AddCommMonoid M] {n : ℕ} (f : (⟨1, ![n]⟩ : Shape).Idx → M) : ∑ i, f i = ∑ a : Fin n, f (ix1 a) := by
  refine (Equiv.sum_comp (⟨fun a => ix1 a, fun i => i 0, fun _ => rfl, fun i => (eq_ix1 i).symm⟩ : Fin n ≃ (⟨1, ![n]⟩ : Shape).Idx) f).symm

/-- THE REFERENCE'S RESULT: the loss of its two normalized matrices. -/
theorem reference_value (x0 x1 : (⟨S4096x512, .f32⟩ : BufTy).Contents (Elt Ideal)) :
    val_main_v25 (F := Ideal) x0 x1 ix0
      = Spec.loss (fun a k => val_main_v4 (F := Ideal) x0 (ix2 a k)) (fun a k => val_main_v13 (F := Ideal) x1 (ix2 a k)) := by
  rw [val_main_v25_apply, val_main_v24_apply, val_main_cst_4_apply, val_main_cst_5_apply]
  unfold Spec.loss
  show Ideal.div (Ideal.ofBits .f32 0x00000000#32 + _) Spec.c4096 = _
  rw [Ideal.ofBits_zero_f32, zero_add, sum_idx1]
  refine congrArg (Ideal.div · Spec.c4096) (Finset.sum_congr rfl fun r _ => ?_)
  rw [val_main_v23_apply, val_main_cst_3_apply]
  show Ideal.ofBits .f32 0x00000000#32 + _ = _
  rw [Ideal.ofBits_zero_f32, zero_add]
  unfold Spec.kl
  refine Finset.sum_congr rfl fun q _ => ?_
  have e : idx_main_v23 (ix1 r) q = ix2 r q := funext fun a => by match a with | ⟨0, _⟩ => rfl | ⟨1, _⟩ => rfl
  rw [e, val_main_v22_apply, val_main_v20_apply, val_main_v21_apply, v18_at, v19_at]
  simp only [v8_at, v17_at]
  rfl

end Cert.ReferenceIdeal.Math

end
-- ==== Proof.RefVal.lean ====
/-
  The reference's run, read stage by stage.

  @main's 69 operations come cut into nine stretches — the first matrix normalized; its distance matrix; the second
  matrix normalized; its distance matrix; each log-softmax in two; the divergence and its mean — and the buffers after
  each stretch are read from the buffers before it: the result of a stretch is the composition of that stretch's
  operations on the few buffers it reads, and a buffer the stretch does not write is kept.  Chained, the result buffer
  after all 69 is the last operation's stage of the two arguments.
-/
import proofs.«124254_j31353261261533_1_alg».proof.Proof.RefReadP
import Idealize.ShloMosaic.Lib.Pipeline.Frame

set_option maxRecDepth 16384

noncomputable section

namespace Cert.ReferenceIdeal.Stages

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- A value carried into a typed reference's buffer and back is the value. -/
theorem ofBuf_toBuf {Val : EltTy → Type} {T : BufTy} (x : TRef sig T) (v : T.Contents Val) : x.ofBuf (x.toBuf v) = v := by
  simp only [TRef.ofBuf, TRef.toBuf, cast_cast, cast_eq]

variable (W : Valuation τ sig (Elt F)) (x0 x1 : (⟨S4096x512, .f32⟩ : BufTy).Contents (Elt F))

theorem A_v4 (h0 : W (Proc.devRef .tc main_arg0) = x0) : after opsA W (Proc.devRef .tc main_v4) = val_main_v4 (F := F) x0 := by
  after_results
  rw [h0]
  rfl
theorem A_arg1 : after opsA W (Proc.devRef .tc main_arg1) = W (Proc.devRef .tc main_arg1) := by
  after_results

theorem B_v8 (h : W (Proc.devRef .tc main_v4) = val_main_v4 (F := F) x0) : after opsB W (Proc.devRef .tc main_v8) = val_main_v8 (F := F) x0 := by
  after_results
  rw [h]
  rfl
theorem B_arg1 : after opsB W (Proc.devRef .tc main_arg1) = W (Proc.devRef .tc main_arg1) := by
  after_results

theorem C_v13 (h1 : W (Proc.devRef .tc main_arg1) = x1) : after opsC W (Proc.devRef .tc main_v13) = val_main_v13 (F := F) x1 := by
  after_results
  rw [h1]
  rfl
theorem C_v8 : after opsC W (Proc.devRef .tc main_v8) = W (Proc.devRef .tc main_v8) := by
  after_results

theorem D_v17 (h : W (Proc.devRef .tc main_v13) = val_main_v13 (F := F) x1) : after opsD W (Proc.devRef .tc main_v17) = val_main_v17 (F := F) x1 := by
  after_results
  rw [h]
  rfl
theorem D_v8 : after opsD W (Proc.devRef .tc main_v8) = W (Proc.devRef .tc main_v8) := by
  after_results

theorem E1_v5 (h : W (Proc.devRef .tc main_v8) = val_main_v8 (F := F) x0) : after opsE1 W (Proc.devRef .tc main_call2_v5) = val_main_call2_v5 (F := F) x0 := by
  after_results
  rw [h]
  simp only [ofBuf_toBuf]
  rfl
theorem E1_v17 : after opsE1 W (Proc.devRef .tc main_v17) = W (Proc.devRef .tc main_v17) := by
  after_results
theorem E2_v18 (h : W (Proc.devRef .tc main_call2_v5) = val_main_call2_v5 (F := F) x0) : after opsE2 W (Proc.devRef .tc main_v18) = val_main_v18 (F := F) x0 := by
  after_results
  rw [h]
  rfl
theorem E2_v17 : after opsE2 W (Proc.devRef .tc main_v17) = W (Proc.devRef .tc main_v17) := by
  after_results

theorem G1_v5 (h : W (Proc.devRef .tc main_v17) = val_main_v17 (F := F) x1) : after opsG1 W (Proc.devRef .tc main_call3_v5) = val_main_call3_v5 (F := F) x1 := by
  after_results
  rw [h]
  simp only [ofBuf_toBuf]
  rfl
theorem G1_v18 : after opsG1 W (Proc.devRef .tc main_v18) = W (Proc.devRef .tc main_v18) := by
  after_results
theorem G2_v19 (h : W (Proc.devRef .tc main_call3_v5) = val_main_call3_v5 (F := F) x1) : after opsG2 W (Proc.devRef .tc main_v19) = val_main_v19 (F := F) x1 := by
  after_results
  rw [h]
  rfl
theorem G2_v18 : after opsG2 W (Proc.devRef .tc main_v18) = W (Proc.devRef .tc main_v18) := by
  after_results

theorem H_v25 (h18 : W (Proc.devRef .tc main_v18) = val_main_v18 (F := F) x0) (h19 : W (Proc.devRef .tc main_v19) = val_main_v19 (F := F) x1) :
    after opsH W (Proc.devRef .tc main_v25) = val_main_v25 (F := F) x0 x1 := by
  after_results
  rw [h18, h19]
  rfl

/-- THE RESULT BUFFER after @main's 69 operations is the last operation's stage of the two arguments. -/
theorem after_eq (m : (ℓ : Loc nD τ sig) → Buf (Elt F) ℓ) (c : Dev nD) :
    after ops (launchContents m c) (Proc.devRef .tc main_v25)
      = val_main_v25 (F := F) (m ((c.tc : Thread nD τ).loc main_arg0)) (m ((c.tc : Thread nD τ).loc main_arg1)) := by
  rw [ops_eq]
  simp only [StableHlo.after_append]
  refine H_v25 _ _ _ ?_ ?_
  · refine (G2_v18 _).trans ((G1_v18 _).trans (E2_v18 _ _ (E1_v5 _ _ ?_)))
    refine (D_v8 _).trans ((C_v8 _).trans (B_v8 _ _ ?_))
    exact A_v4 _ _ rfl
  · refine G2_v19 _ _ (G1_v5 _ _ ?_)
    refine (E2_v17 _).trans ((E1_v17 _).trans (D_v17 _ _ ?_))
    refine C_v13 _ _ ?_
    exact (B_arg1 _).trans ((A_arg1 _).trans rfl)

end Cert.ReferenceIdeal.Stages

end
-- ==== Proof.Bridge.lean ====
/-
  The two programs compute one number.

  Both divide each argument by its clamped row norms with the same operations (the kernel then narrows the format,
  which over the extended reals changes nothing), so both read the same two normalized matrices; the kernel's result
  and the reference's are each the loss (`Spec.loss`) of those.
-/
import proofs.«124254_j31353261261533_1_alg».proof.Proof.KIFinal
import proofs.«124254_j31353261261533_1_alg».proof.Proof.RefMath
import proofs.«124254_j31353261261533_1_alg».proof.Proof.RefVal

set_option maxRecDepth 16384

noncomputable section

namespace Cert.Bridge

open Idealize.ShloMosaic Idealize.ShloMosaic.ValueIdx

/-- The kernel's normalized first matrix is the reference's. -/
theorem norm_eq0 (a : (⟨Cert.ReferenceIdeal.S4096x512, .f32⟩ : BufTy).Contents (Elt Ideal)) :
    Cert.KernelIdeal.Hand.normalize (F := Ideal) a = Cert.ReferenceIdeal.ReadP.val_main_v4 (F := Ideal) a := rfl

/-- The kernel's normalized second matrix is the reference's. -/
theorem norm_eq1 (a : (⟨Cert.ReferenceIdeal.S4096x512, .f32⟩ : BufTy).Contents (Elt Ideal)) :
    Cert.KernelIdeal.Hand.normalize (F := Ideal) a = Cert.ReferenceIdeal.ReadP.val_main_v13 (F := Ideal) a := rfl

/-- THE TWO RESULTS ARE ONE: the loss of the two normalized arguments. -/
theorem result_eq (a0 a1 : (⟨Cert.ReferenceIdeal.S4096x512, .f32⟩ : BufTy).Contents (Elt Ideal)) :
    Cert.ReferenceIdeal.ReadP.val_main_v25 (F := Ideal) a0 a1
      = Cert.KernelIdeal.Hand.meanOf (F := Ideal)
          (Cert.KernelIdeal.Hand.G4 (Cert.KernelIdeal.Hand.normalize a0) (Cert.KernelIdeal.Hand.normalize a1)) := by
  funext i
  have hi := eq_ix0 i
  subst hi
  rw [Cert.ReferenceIdeal.Math.reference_value, Cert.KernelIdeal.Hand.kernel_value, norm_eq0, norm_eq1]

end Cert.Bridge

end
-- ==== Proof.lean ====
/-
  The certificate: the Pallas kernel computing the mean row-wise KL divergence between the softmaxes of two
  cosine-distance matrices, against its jnp reference.

  The kernel's @main divides each argument by its clamped row norms on the host, runs one pallas_call over 32 row
  tiles — five windows over three arrays, each normalized matrix read both tile by tile and whole —, and takes the mean
  of the region's 4096 numbers on the host.  Its run, at any float instance, is the library's run of an @main given as a
  list of segments (four host stretches, the region, one host stretch), the arrays two windows read held half by each
  window; from it the two frames, and at the extended reals the result as the mean of the body's values row by row.
  The reference's run is its 69 host operations folded over the launch contents.  Over the extended reals both
  results are the loss `Spec.loss` of the two normalized arguments: the body's lane reductions and the host's
  reductions are the same finite sums and the same folds of `max` from `-∞`, the body's matrix product into the zero
  accumulator and the host's `dot_general` with the transpose are the same sum over the 512 features.  No entry is
  asked to be finite: only sums are re-indexed.  The idealization rewrote no operation, so `preserves` states nothing.
-/
import proofs.«124254_j31353261261533_1_alg».proof.Defs
import proofs.«124254_j31353261261533_1_alg».proof.Proof.Gen.Kernel
import proofs.«124254_j31353261261533_1_alg».proof.Proof.Gen.KernelIdeal
import proofs.«124254_j31353261261533_1_alg».proof.Proof.Gen.ReferenceIdeal
import proofs.«124254_j31353261261533_1_alg».proof.Proof.Gen.Pre_finite_inputs
import proofs.«124254_j31353261261533_1_alg».proof.Proof.KVal
import proofs.«124254_j31353261261533_1_alg».proof.Proof.Bridge

noncomputable section

namespace Cert.Proof

open Idealize.ShloMosaic Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Over the extended reals the idealized kernel and the reference, run from memories agreeing on the arguments, end
    with one result: the loss of the two normalized arguments. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Stages.after_eq, (hagree c).1, (hagree c).2]
  exact Cert.Bridge.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
